-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x128 : Shape := ⟨3, ![4096, 32, 128]⟩
abbrev S32x128 : Shape := ⟨2, ![32, 128]⟩
abbrev S512x128 : Shape := ⟨2, ![512, 128]⟩
abbrev S512 : Shape := ⟨1, ![512]⟩
abbrev S_ : Shape := ⟨0, ![]⟩

class Facts : Prop where
  bcast_S_S4096x32x128 : S_.BroadcastsInDim S4096x32x128 (![] : Fin 0 → Fin S4096x32x128.rank)
  reducesTo_S4096x32x128_S_d0_1_2 : S4096x32x128.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x128 .f32) (main_arg5 : FVec F S512x128 .f32) (main_arg6 : FVec F S512 .f32) (main_arg7 : FVec F S512 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S4096x32x128 .f32) (main_arg1 : FVec F S32x128 .f32) (main_arg2 : FVec F S32x128 .f32) (main_arg3 : FVec F S32x128 .f32) (main_arg4 : FVec F S512x128 .f32) (main_arg5 : FVec F S512x128 .f32) (main_arg6 : FVec F S512 .f32) (main_arg7 : FVec F S512 .f32) : IVec S_ 1 :=
  let main_v0 : FVec F S4096x32x128 .f32 := Host.absf main_arg0
  let main_cst : FVec F S_ .f32 := constant S_ .f32 0x7F800000#32
  let main_v1 : FVec F S4096x32x128 .f32 := broadcastInDim S4096x32x128 ![] bcast_S_S4096x32x128 main_cst
  let main_v2 : IVec S4096x32x128 1 := cmpf .olt main_v0 main_v1
  let main_c : IVec S_ 1 := constantI S_ 1 1#1
  let main_v3 : IVec S_ 1 := (fun x v => Host.reduce IntOp.andi x v reducesTo_S4096x32x128_S_d0_1_2 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg6 main_arg7 main_v13 main_v16
-- ==== Kernel.lean ====
abbrev S4096x32x128 : Shape := ⟨3, ![4096, 32, 128]⟩
abbrev S32x128 : Shape := ⟨2, ![32, 128]⟩
abbrev S512x128 : Shape := ⟨2, ![512, 128]⟩
abbrev S512 : Shape := ⟨1, ![512]⟩
abbrev S128x512 : Shape := ⟨2, ![128, 512]⟩
abbrev S32x512 : Shape := ⟨2, ![32, 512]⟩
abbrev S1x512 : Shape := ⟨2, ![1, 512]⟩
abbrev S256x32x128 : Shape := ⟨3, ![256, 32, 128]⟩
abbrev S64x32x128 : Shape := ⟨3, ![64, 32, 128]⟩
abbrev S2048x128 : Shape := ⟨2, ![2048, 128]⟩
abbrev S2048x512 : Shape := ⟨2, ![2048, 512]⟩
abbrev S64x32x512 : Shape := ⟨3, ![64, 32, 512]⟩
abbrev S1x32x512 : Shape := ⟨3, ![1, 32, 512]⟩
abbrev S1x32x128 : Shape := ⟨3, ![1, 32, 128]⟩
abbrev S_ : Shape := ⟨0, ![]⟩

abbrev nBuf : Space → Nat
  | .hbm => 47
  | .vmem => 8
  | .smem => 0
  | _ => 0

abbrev bufTy : (tb : Table) → Fin (tcTables nBuf tb) → BufTy
  | .hbm, ⟨0, _⟩ => ⟨S4096x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S512x128, .f32⟩
  | .hbm, ⟨5, _⟩ => ⟨S512x128, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S128x512, .f32⟩
  | .hbm, ⟨10, _⟩ => ⟨S32x512, .f32⟩
  | .hbm, ⟨11, _⟩ => ⟨S1x512, .f32⟩
  | .hbm, ⟨12, _⟩ => ⟨S32x512, .f32⟩
  | .hbm, ⟨13, _⟩ => ⟨S32x512, .f32⟩
  | .hbm, ⟨14, _⟩ => ⟨S128x512, .f32⟩
  | .hbm, ⟨15, _⟩ => ⟨S128x512, .bf16⟩
  | .hbm, ⟨16, _⟩ => ⟨S4096x32x128, .f32⟩
  | .hbm, ⟨17, _⟩ => ⟨S1x32x128, .f32⟩
  | .hbm, ⟨18, _⟩ => ⟨S32x128, .f32⟩
  | .hbm, ⟨19, _⟩ => ⟨S32x128, .bf16⟩
  | .hbm, ⟨20, _⟩ => ⟨S32x512, .f32⟩
  | .hbm, ⟨21, _⟩ => ⟨S32x512, .f32⟩
  | .hbm, ⟨22, _⟩ => ⟨S32x128, .f32⟩
  | .hbm, ⟨23, _⟩ => ⟨S32x128, .f32⟩
  | .hbm, ⟨24, _⟩ => ⟨S32x128, .f32⟩
  | .hbm, ⟨25, _⟩ => ⟨S_, .f32⟩
  | .hbm, ⟨26, _⟩ => ⟨S32x128, .f32⟩
  | .hbm, ⟨27, _⟩ => ⟨S32x128, .f32⟩
  | .hbm, ⟨28, _⟩ => ⟨S_, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S_, .f32⟩
  | .hbm, ⟨35, _⟩ => ⟨S32x128, .f32⟩
  | .hbm, ⟨36, _⟩ => ⟨S32x128, .f32⟩
  | .hbm, ⟨37, _⟩ => ⟨S_, .f32⟩
  | .hbm, ⟨38, _⟩ => ⟨S32x128, .f32⟩
  | .hbm, ⟨39, _⟩ => ⟨S32x128, .f32⟩
  | .hbm, ⟨40, _⟩ => ⟨S32x128, .f32⟩
  | .hbm, ⟨41, _⟩ => ⟨S32x128, .f32⟩
  | .hbm, ⟨42, _⟩ => ⟨S32x128, .f32⟩
  | .hbm, ⟨43, _⟩ => ⟨S32x128, .f32⟩
  | .hbm, ⟨44, _⟩ => ⟨S32x128, .f32⟩
  | .hbm, ⟨45, _⟩ => ⟨S1x32x128, .f32⟩
  | .hbm, ⟨46, _⟩ => ⟨S32x128, .f32⟩
  | .local _ .vmem, ⟨0, _⟩ => ⟨S256x32x128, .f32⟩
  | .local _ .vmem, ⟨1, _⟩ => ⟨S256x32x128, .f32⟩
  | .local _ .vmem, ⟨2, _⟩ => ⟨S128x512, .bf16⟩
  | .local _ .vmem, ⟨3, _⟩ => ⟨S32x512, .f32⟩
  | .local _ .vmem, ⟨4, _⟩ => ⟨S32x128, .f32⟩
  | .local _ .vmem, ⟨5, _⟩ => ⟨S32x128, .f32⟩
  | .local _ .vmem, ⟨6, _⟩ => ⟨S256x32x128, .f32⟩
  | .local _ .vmem, ⟨7, _⟩ => ⟨S256x32x128, .f32⟩
  | _, _ => ⟨S4096x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_mult1 (k0_t1 : Fin k0_t1_loop.trips) : BitVec 32 :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v7 : BitVec 32 := Scalar.muli arg7 c1_i32_8
  let v8 : BitVec 32 := Scalar.addi c0_i32_9 v7
  let c64_i32 : BitVec 32 := 64#32
  let v9 : BitVec 32 := Scalar.muli v8 c64_i32
  v9
def k0_off1 (k0_t1 : Fin k0_t1_loop.trips) : Fin 3 → Nat :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v7 : BitVec 32 := Scalar.muli arg7 c1_i32_8
  let v8 : BitVec 32 := Scalar.addi c0_i32_9 v7
  let c64_i32 : BitVec 32 := 64#32
  let v9 : BitVec 32 := Scalar.muli v8 c64_i32
  let v10 : BitVec 32 := v9
  let v11 : Index := Scalar.indexCast v10
  let c0_10 : Index := 0#32
  let c0_11 : Index := 0#32
  ![v11.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S512x128_S128x512_1_0 : S512x128.Transposes [1, 0] S128x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x128_S32x128_0_0 : ∀ a, (![0, 0] : Fin 2 → Nat) a + S32x128.size a ≤ S32x128.size a
  h_S32x128 : 0 < S32x128.numel
  h_S64x32x128 : 0 < S64x32x128.numel
  shapeCasts_S64x32x128_S2048x128 : S64x32x128.ShapeCasts S2048x128
  shapeCasts_S2048x512_S64x32x512 : S2048x512.ShapeCasts S64x32x512
  shapeCasts_S32x512_S1x32x512 : S32x512.ShapeCasts S1x32x512
  broadcasts_S1x32x512_S64x32x512 : S1x32x512.Broadcasts S64x32x512
  slices_S64x32x512_o0_0_0_S64x32x128 : S64x32x512.Slices ![0, 0, 0] S64x32x128
  slices_S64x32x512_o0_0_128_S64x32x128 : S64x32x512.Slices ![0, 0, 128] S64x32x128
  slices_S64x32x512_o0_0_256_S64x32x128 : S64x32x512.Slices ![0, 0, 256] S64x32x128
  slices_S64x32x512_o0_0_384_S64x32x128 : S64x32x512.Slices ![0, 0, 384] S64x32x128
  shapeCasts_S32x128_S1x32x128 : S32x128.ShapeCasts S1x32x128
  broadcasts_S1x32x128_S64x32x128 : S1x32x128.Broadcasts S64x32x128
  slices_S4096x32x128_S1x32x128_4095_0_0 : S4096x32x128.Slices ![4095, 0, 0] S1x32x128
  shapeCasts_S1x32x128_S32x128 : S1x32x128.ShapeCasts S32x128
  slices_S32x512_S32x128_0_0 : S32x512.Slices ![0, 0] S32x128
  bcast_S_S32x128 : S_.BroadcastsInDim S32x128 (![] : Fin 0 → Fin S32x128.rank)
  slices_S32x512_S32x128_0_128 : S32x512.Slices ![0, 128] S32x128
  slices_S32x512_S32x128_0_256 : S32x512.Slices ![0, 256] S32x128
  dot_S32x128_S128x512_S32x512_1_0_0_1_n_n_wf : DotDims.WF S32x128 S128x512 S32x512 [1] [0] [0] [1] [] []
  dot_S2048x128_S128x512_S2048x512_1_0_0_1_n_n_wf : DotDims.WF S2048x128 S128x512 S2048x512 [1] [0] [0] [1] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S64x32x128.size a ≤ S256x32x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x128.size a ≤ S4096x32x128.size a
  hwx0_0 : ∀ i : grid0.Coords, EltTy.bits .f32 = 32 ∨ (Rect.block (s := S4096x32x128) S256x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x32x128.size a ≤ S4096x32x128.size a
  hwx0_5 : ∀ i : grid0.Coords, EltTy.bits .f32 = 32 ∨ (Rect.block (s := S4096x32x128) S256x32x128.size (cc0_transform_5 i) (hinb0_5 i)).WholeWords (EltTy.packing .f32)

variable [Facts₀]

def dot_S32x128_S128x512_S32x512_1_0_0_1_n_n : DotDims S32x128 S128x512 S32x512 where
  lhsContracting := [1]
  rhsContracting := [0]
  lhsNonContracting := [0]
  rhsNonContracting := [1]
  lhsBatch := []
  rhsBatch := []
  wf := dot_S32x128_S128x512_S32x512_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x32x128 : Shape := ⟨3, ![4096, 32, 128]⟩
abbrev S32x128 : Shape := ⟨2, ![32, 128]⟩
abbrev S512x128 : Shape := ⟨2, ![512, 128]⟩
abbrev S512 : Shape := ⟨1, ![512]⟩
abbrev S4096x32x512 : Shape := ⟨3, ![4096, 32, 512]⟩
abbrev S32x512 : Shape := ⟨2, ![32, 512]⟩
abbrev S1x32x512 : Shape := ⟨3, ![1, 32, 512]⟩
abbrev S1x1x512 : Shape := ⟨3, ![1, 1, 512]⟩
abbrev S_ : Shape := ⟨0, ![]⟩
abbrev S1x32x128 : Shape := ⟨3, ![1, 32, 128]⟩

abbrev nBuf : Space → Nat
  | .hbm => 60
  | .vmem => 0
  | .smem => 0
  | _ => 0

abbrev bufTy : (tb : Table) → Fin (tcTables nBuf tb) → BufTy
  | .hbm, ⟨0, _⟩ => ⟨S4096x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S512x128, .f32⟩
  | .hbm, ⟨5, _⟩ => ⟨S512x128, .f32⟩
  | .hbm, ⟨6, _⟩ => ⟨S512, .f32⟩
  | .hbm, ⟨7, _⟩ => ⟨S512, .f32⟩
  | .hbm, ⟨8, _⟩ => ⟨S4096x32x512, .f32⟩
  | .hbm, ⟨9, _⟩ => ⟨S32x512, .f32⟩
  | .hbm, ⟨10, _⟩ => ⟨S1x32x512, .f32⟩
  | .hbm, ⟨11, _⟩ => ⟨S4096x32x512, .f32⟩
  | .hbm, ⟨12, _⟩ => ⟨S4096x32x512, .f32⟩
  | .hbm, ⟨13, _⟩ => ⟨S512, .f32⟩
  | .hbm, ⟨14, _⟩ => ⟨S1x1x512, .f32⟩
  | .hbm, ⟨15, _⟩ => ⟨S4096x32x512, .f32⟩
  | .hbm, ⟨16, _⟩ => ⟨S4096x32x512, .f32⟩
  | .hbm, ⟨17, _⟩ => ⟨S4096x32x128, .f32⟩
  | .hbm, ⟨18, _⟩ => ⟨S4096x32x128, .f32⟩
  | .hbm, ⟨19, _⟩ => ⟨S4096x32x128, .f32⟩
  | .hbm, ⟨20, _⟩ => ⟨S_, .f32⟩
  | .hbm, ⟨21, _⟩ => ⟨S4096x32x128, .f32⟩
  | .hbm, ⟨22, _⟩ => ⟨S4096x32x128, .f32⟩
  | .hbm, ⟨23, _⟩ => ⟨S_, .f32⟩
  | .hbm, ⟨24, _⟩ => ⟨S4096x32x128, .f32⟩
  | .hbm, ⟨25, _⟩ => ⟨S4096x32x128, .f32⟩
  | .hbm, ⟨26, _⟩ => ⟨S4096x32x128, .f32⟩
  | .hbm, ⟨27, _⟩ => ⟨S4096x32x128, .f32⟩
  | .hbm, ⟨28, _⟩ => ⟨S4096x32x128, .f32⟩
  | .hbm, ⟨29, _⟩ => ⟨S_, .f32⟩
  | .hbm, ⟨30, _⟩ => ⟨S4096x32x128, .f32⟩
  | .hbm, ⟨31, _⟩ => ⟨S4096x32x128, .f32⟩
  | .hbm, ⟨32, _⟩ => ⟨S_, .f32⟩
  | .hbm, ⟨33, _⟩ => ⟨S4096x32x128, .f32⟩
  | .hbm, ⟨34, _⟩ => ⟨S4096x32x128, .f32⟩
  | .hbm, ⟨35, _⟩ => ⟨S4096x32x128, .f32⟩
  | .hbm, ⟨36, _⟩ => ⟨S4096x32x128, .f32⟩
  | .hbm, ⟨37, _⟩ => ⟨S4096x32x128, .f32⟩
  | .hbm, ⟨38, _⟩ => ⟨S4096x32x128, .f32⟩
  | .hbm, ⟨39, _⟩ => ⟨S4096x32x128, .f32⟩
  | .hbm, ⟨40, _⟩ => ⟨S_, .f32⟩
  | .hbm, ⟨41, _⟩ => ⟨S4096x32x128, .f32⟩
  | .hbm, ⟨42, _⟩ => ⟨S4096x32x128, .f32⟩
  | .hbm, ⟨43, _⟩ => ⟨S_, .f32⟩
  | .hbm, ⟨44, _⟩ => ⟨S4096x32x128, .f32⟩
  | .hbm, ⟨45, _⟩ => ⟨S4096x32x128, .f32⟩
  | .hbm, ⟨46, _⟩ => ⟨S1x32x128, .f32⟩
  | .hbm, ⟨47, _⟩ => ⟨S4096x32x128, .f32⟩
  | .hbm, ⟨48, _⟩ => ⟨S4096x32x128, .f32⟩
  | .hbm, ⟨49, _⟩ => ⟨S4096x32x128, .f32⟩
  | .hbm, ⟨50, _⟩ => ⟨S4096x32x128, .f32⟩
  | .hbm, ⟨51, _⟩ => ⟨S4096x32x128, .f32⟩
  | .hbm, ⟨52, _⟩ => ⟨S4096x32x128, .f32⟩
  | .hbm, ⟨53, _⟩ => ⟨S1x32x128, .f32⟩
  | .hbm, ⟨54, _⟩ => ⟨S4096x32x128, .f32⟩
  | .hbm, ⟨55, _⟩ => ⟨S4096x32x128, .f32⟩
  | .hbm, ⟨56, _⟩ => ⟨S1x32x128, .f32⟩
  | .hbm, ⟨57, _⟩ => ⟨S32x128, .f32⟩
  | .hbm, ⟨58, _⟩ => ⟨S1x32x128, .f32⟩
  | .hbm, ⟨59, _⟩ => ⟨S32x128, .f32⟩
  | _, _ => ⟨S4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  bcast_S32x512_S1x32x512_1_2 : S32x512.BroadcastsInDim S1x32x512 (![1, 2] : Fin 2 → Fin S1x32x512.rank)
  bcast_S1x32x512_S4096x32x512_0_1_2 : S1x32x512.BroadcastsInDim S4096x32x512 (![0, 1, 2] : Fin 3 → Fin S4096x32x512.rank)
  bcast_S512_S1x1x512_2 : S512.BroadcastsInDim S1x1x512 (![2] : Fin 1 → Fin S1x1x512.rank)
  bcast_S1x1x512_S4096x32x512_0_1_2 : S1x1x512.BroadcastsInDim S4096x32x512 (![0, 1, 2] : Fin 3 → Fin S4096x32x512.rank)
  slices_S4096x32x512_S4096x32x128_0_0_0 : S4096x32x512.Slices ![0, 0, 0] S4096x32x128
  bcast_S_S4096x32x128 : S_.BroadcastsInDim S4096x32x128 (![] : Fin 0 → Fin S4096x32x128.rank)
  slices_S4096x32x512_S4096x32x128_0_0_128 : S4096x32x512.Slices ![0, 0, 128] S4096x32x128
  slices_S4096x32x512_S4096x32x128_0_0_256 : S4096x32x512.Slices ![0, 0, 256] S4096x32x128
  slices_S4096x32x512_S4096x32x128_0_0_384 : S4096x32x512.Slices ![0, 0, 384] S4096x32x128
  bcast_S32x128_S1x32x128_1_2 : S32x128.BroadcastsInDim S1x32x128 (![1, 2] : Fin 2 → Fin S1x32x128.rank)
  bcast_S1x32x128_S4096x32x128_0_1_2 : S1x32x128.BroadcastsInDim S4096x32x128 (![0, 1, 2] : Fin 3 → Fin S4096x32x128.rank)
  slices_S4096x32x128_S1x32x128_4095_0_0 : S4096x32x128.Slices ![4095, 0, 0] S1x32x128
  shapeCasts_S1x32x128_S32x128 : S1x32x128.ShapeCasts S32x128
  dot_S4096x32x128_S512x128_S4096x32x512_2_1_01_0_n_n_wf : DotDims.WF S4096x32x128 S512x128 S4096x32x512 [2] [1] [0, 1] [0] [] []
  dot_S32x128_S512x128_S32x512_1_1_0_0_n_n_wf : DotDims.WF S32x128 S512x128 S32x512 [1] [1] [0] [0] [] []

variable [Facts₀]

def dot_S4096x32x128_S512x128_S4096x32x512_2_1_01_0_n_n : DotDims S4096x32x128 S512x128 S4096x32x512 where
  lhsContracting := [2]
  rhsContracting := [1]
  lhsNonContracting := [0, 1]
  rhsNonContracting := [0]
  lhsBatch := []
  rhsBatch := []
  wf := dot_S4096x32x128_S512x128_S4096x32x512_2_1_01_0_n_n_wf
def dot_S32x128_S512x128_S32x512_1_1_0_0_n_n : DotDims S32x128 S512x128 S32x512 where
  lhsContracting := [1]
  rhsContracting := [1]
  lhsNonContracting := [0]
  rhsNonContracting := [0]
  lhsBatch := []
  rhsBatch := []
  wf := dot_S32x128_S512x128_S32x512_1_1_0_0_n_n_wf

class Facts : Prop extends Facts₀ where

variable [Facts]
-- ==== Proof.KPieces.lean ====
/-
  What one grid point's run of the kernel body leaves in the output block, as a list of stored pieces.

  The body loops over four chunks of 64 time steps.  Chunk `k` loads rows `64·k … 64·k + 63` of the input block,
  computes the cell on them, and stores the result over the same rows of the output block.  So the pieces the whole
  run stores are, for each chunk, ONE piece: the rectangle of the chunk's rows, holding the body's arithmetic
  (`k0_pay1`) of the weights, the step-free term, `c0`, the noise, and the chunk's rows of the input block.
  Stated for any float instance.
-/
import proofs.«159641_j54614804136123_2_alg».proof.Proof.Gen.KernelIdeal.Frame
import Idealize.ShloMosaic.Lib.Pipeline.Value

set_option maxRecDepth 16384

noncomputable section

namespace Cert.KernelIdeal.LstmValue

open Cert.KernelIdeal Cert.KernelIdeal.Gen
open Idealize.ShloMosaic Idealize.ShloMosaic.TcCoe Idealize.ShloMosaic.Tactic
open Idealize.SL Idealize.SL.Sem

variable {F : FTy → Type} [FloatOps F]

/-- The rows of chunk `k` inside the 256-row block. -/
abbrev chunkRect (k : Fin k0_t1_loop.trips) : Rect S256x32x128 :=
  Rect.unit (s := S256x32x128) (k0_off1 k) S64x32x128.size (k0_off1_inb k)

/-- Chunk `k`'s piece: its rows, holding the cell computed on those rows of the input block `x0`. -/
def chunkPiece (x0 : Vec F S256x32x128 .f32) (x1 : Vec F S128x512 .bf16) (x2 : Vec F S32x512 .f32) (x3 x4 : Vec F S32x128 .f32)
    (k : Fin k0_t1_loop.trips) : View.Piece (Elt F) S256x32x128 .f32 :=
  ⟨chunkRect k, k0_pay1 x1 x2 x3 x4 (View.ld x0 (chunkRect k))⟩

/-- One trip of the loop stores exactly its chunk's piece. -/
theorem tripL_eq (𝒱 : Variants) (bd : Option 𝒱.V) (c : Dev nD) (i : grid0.Coords) (arg1 : Memref sig .tc .vmem S256x32x128 .f32) (harg1 : arg1.IsWhole) (arg2 : Memref sig .tc .vmem S128x512 .bf16) (harg2 : arg2.IsWhole) (arg3 : Memref sig .tc .vmem S32x512 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S256x32x128 .f32) (harg6 : arg6.IsWhole)
    (x0 : Vec F S256x32x128 .f32) (v0 : Vec F S128x512 .bf16) (v2 : Vec F S32x512 .f32) (v4 v5 : Vec F S32x128 .f32) (k : Fin k0_t1_loop.trips) :
    tripL_k0_t1 (F := F) 𝒱 c bd i arg1 harg1 arg2 harg2 arg3 harg3 arg4 harg4 arg5 harg5 arg6 harg6 v0 v2 v4 v5 (harg1.unread x0) k = [chunkPiece x0 v0 v2 v4 v5 k] := by
  unfold tripL_k0_t1 trip_k0_t1
  dsimp only
  rw [View.readAt_eq_ld, harg1.read_unread]
  rfl

/-- Every piece stored by the trips before `n` is some chunk's piece. -/
theorem pb_mem (𝒱 : Variants) (bd : Option 𝒱.V) (c : Dev nD) (i : grid0.Coords) (arg1 : Memref sig .tc .vmem S256x32x128 .f32) (harg1 : arg1.IsWhole) (arg2 : Memref sig .tc .vmem S128x512 .bf16) (harg2 : arg2.IsWhole) (arg3 : Memref sig .tc .vmem S32x512 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S256x32x128 .f32) (harg6 : arg6.IsWhole)
    (x0 : Vec F S256x32x128 .f32) (v0 : Vec F S128x512 .bf16) (v2 : Vec F S32x512 .f32) (v4 v5 : Vec F S32x128 .f32) :
    ∀ (n : ℕ), ∀ p ∈ pb_k0_t1 (F := F) 𝒱 c bd i arg1 harg1 arg2 harg2 arg3 harg3 arg4 harg4 arg5 harg5 arg6 harg6 v0 v2 v4 v5 (harg1.unread x0) n,
      ∃ k : Fin k0_t1_loop.trips, p = chunkPiece x0 v0 v2 v4 v5 k
  | 0 => by
    intro p hp
    rw [pb_k0_t1.eq_1] at hp
    exact absurd hp List.not_mem_nil
  | n + 1 => by
    intro p hp
    rw [pb_k0_t1.eq_2] at hp
    unfold pb_k0_t1Step at hp
    split at hp
    · rename_i h
      rcases List.mem_append.mp hp with hp | hp
      · rw [tripL_eq] at hp
        exact ⟨⟨n, h⟩, List.mem_singleton.mp hp⟩
      · exact pb_mem 𝒱 bd c i arg1 harg1 arg2 harg2 arg3 harg3 arg4 harg4 arg5 harg5 arg6 harg6 x0 v0 v2 v4 v5 n p hp
    · exact pb_mem 𝒱 bd c i arg1 harg1 arg2 harg2 arg3 harg3 arg4 harg4 arg5 harg5 arg6 harg6 x0 v0 v2 v4 v5 n p hp

theorem hz2 : (![0, 0] : Fin 2 → Nat) = fun _ => 0 := funext fun a => by fin_cases a <;> rfl

/-- Every piece the whole run of the body stores into the output block is some chunk's piece, over the blocks the
    body loaded whole (the weights `x1`, the step-free term `x2`, `c0` = `x3`, the noise `x4`). -/
theorem run_mem (c : Dev nD) (i : grid0.Coords) (arg1 : Memref sig .tc .vmem S256x32x128 .f32) (harg1 : arg1.IsWhole) (arg2 : Memref sig .tc .vmem S128x512 .bf16) (harg2 : arg2.IsWhole) (arg3 : Memref sig .tc .vmem S32x512 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S256x32x128 .f32) (harg6 : arg6.IsWhole)
    (x0 : Vec F S256x32x128 .f32) (x1 : Vec F S128x512 .bf16) (x2 : Vec F S32x512 .f32) (x3 x4 : Vec F S32x128 .f32) :
    ∀ p ∈ (kernelRun0_A (F := F) c i arg1 harg1 arg2 harg2 arg3 harg3 arg4 harg4 arg5 harg5 arg6 harg6 x0 x1 x2 x3 x4).1,
      ∃ k : Fin k0_t1_loop.trips, p = chunkPiece x0 x1 x2 x3 x4 k := by
  unfold kernelRun0_A
  dsimp only
  simp only [View.readAt_eq_ld, harg2.read_unread, harg3.read_unread, harg4.read_unread, harg5.read_unread,
    View.ld_unit_zero (S := S128x512) hz2, View.ld_unit_zero (S := S32x512) hz2, View.ld_unit_zero (S := S32x128) hz2]
  exact pb_mem Variants.none none c i arg1 harg1 arg2 harg2 arg3 harg3 arg4 harg4 arg5 harg5 arg6 harg6 x0 x1 x2 x3 x4 _

/-- What the run leaves in the output block is ONE function `G` of the block's index, whenever every chunk's piece
    is the restriction of `G` to the chunk's rows: the chunks' rows tile the block. -/
theorem out_eq_of_chunks (c : Dev nD) (i : grid0.Coords) (arg1 : Memref sig .tc .vmem S256x32x128 .f32) (harg1 : arg1.IsWhole) (arg2 : Memref sig .tc .vmem S128x512 .bf16) (harg2 : arg2.IsWhole) (arg3 : Memref sig .tc .vmem S32x512 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S256x32x128 .f32) (harg6 : arg6.IsWhole)
    (x0 : Vec F S256x32x128 .f32) (x1 : Vec F S128x512 .bf16) (x2 : Vec F S32x512 .f32) (x3 x4 : Vec F S32x128 .f32)
    (G : S256x32x128.Idx → Elt F .f32)
    (hG : ∀ (k : Fin k0_t1_loop.trips) (x : S64x32x128.Idx),
      k0_pay1 x1 x2 x3 x4 (View.ld x0 (chunkRect k)) x = G ((chunkRect k).emb x)) :
    out0_A_5 (F := F) c i arg1 harg1 arg2 harg2 arg3 harg3 arg4 harg4 arg5 harg5 arg6 harg6 x0 x1 x2 x3 x4 = G := by
  unfold out0_A_5
  rw [View.read_writes_eq_canon _ _ _ (cover0_A_5 c i arg1 harg1 arg2 harg2 arg3 harg3 arg4 harg4 arg5 harg5 arg6 harg6 x0 x1 x2 x3 x4)]
  funext y
  refine View.canon_apply_of_pieces G _ ?_ y (cover0_A_5 c i arg1 harg1 arg2 harg2 arg3 harg3 arg4 harg4 arg5 harg5 arg6 harg6 x0 x1 x2 x3 x4 y)
  intro p hp x
  obtain ⟨k, rfl⟩ := run_mem c i arg1 harg1 arg2 harg2 arg3 harg3 arg4 harg4 arg5 harg5 arg6 harg6 x0 x1 x2 x3 x4 p hp
  exact hG k x

end Cert.KernelIdeal.LstmValue

end
-- ==== Proof.LibWords.lean ====
/-
  The two float literals whose values the proof uses, as the extended reals their binary words denote: `1.0` is `1` and
  `3.0` is the real `3`. (The zero word is the library's `Ideal.ofBits_zero_f32`.)
-/
import Idealize.ShloMosaic.PureOps.Ideal
import Idealize.ShloMosaic.PureOps.Ideal.Laws

noncomputable section

namespace Cert.Words

open Idealize.ShloMosaic

/-- The word of `1.0` denotes `1`. -/
theorem one : Ideal.ofBits .f32 0x3F800000#32 = 1 := by
  simp [Ideal.ofBits, Ideal.ieee, -EReal.coe_mul]; norm_num

/-- The word of `3.0` denotes the real `3`. -/
theorem three : Ideal.ofBits .f32 0x40400000#32 = ((3 : ℝ) : EReal) := by
  simp [Ideal.ofBits, Ideal.ieee, -EReal.coe_mul]; norm_num

end Cert.Words

end
-- ==== Proof.Cell.lean ====
/-
  The mathematics of the two programs, on the extended reals, over abstract arrays.

  Every time step `t` applies ONE cell to the same initial state `(h0, c0)`.  For a row `b` of the batch and a gate
  column `g` (512 columns: four gates of 128 lanes each, in the order input, forget, candidate, output) the
  pre-activation is

      gate t b g = Σₖ x[t,b,k]·W_ih[g,k] + (Σₖ h0[b,k]·W_hh[g,k] + (b_ih[g] + b_hh[g])),

  and with σ the logistic function `1 / (1 + e^(-z))` the cell state and the output are

      cellC = σ(forget)·c0 + σ(input)·tanh(candidate),      cellH = σ(output)·tanh(cellC) + noise.

  The three results: `outputs[t,b,d] = cellH` at every step, `hLast[b,d] = cellH` at the last step (4095) and
  `cLast[b,d] = cellC` at the last step.  One program adds the three summands of the pre-activation as
  `(a + h) + bias`, the other as `a + (h + bias)`: addition of extended reals is associative (`gate_assoc`), with
  no finiteness needed.
-/
import Idealize.ShloMosaic.PureOps.Ideal
import Idealize.ShloMosaic.Lib.ValueIdx
import proofs.«159641_j54614804136123_2_alg».proof.Proof.LibWords

noncomputable section

namespace Cert.Lstm

open Idealize.ShloMosaic Idealize.ShloMosaic.ValueIdx

/-- The input sequence [4096, 32, 128]; a state or noise array [32, 128]; a weight [512, 128]; a bias [512]. -/
abbrev SX : Shape := ⟨3, ![4096, 32, 128]⟩
abbrev SB : Shape := ⟨2, ![32, 128]⟩
abbrev SW : Shape := ⟨2, ![512, 128]⟩
abbrev SV : Shape := ⟨1, ![512]⟩

/-- The input's projection: Σₖ x[t,b,k]·W_ih[g,k]. -/
def inProj (x : SX.Idx → EReal) (wih : SW.Idx → EReal) (t : Fin 4096) (b : Fin 32) (g : Fin 512) : EReal :=
  ∑ k : Fin 128, x (ix3 t b k) * wih (ix2 g k)

/-- The initial hidden state's projection: Σₖ h0[b,k]·W_hh[g,k]. -/
def hidProj (h0 : SB.Idx → EReal) (whh : SW.Idx → EReal) (b : Fin 32) (g : Fin 512) : EReal :=
  ∑ k : Fin 128, h0 (ix2 b k) * whh (ix2 g k)

/-- The part of the pre-activation that does not depend on the step: h0's projection plus the two biases. -/
def stepFree (h0 : SB.Idx → EReal) (whh : SW.Idx → EReal) (bih bhh : SV.Idx → EReal) (b : Fin 32) (g : Fin 512) : EReal :=
  hidProj h0 whh b g + (bih (ix1 g) + bhh (ix1 g))

/-- The pre-activation of gate column `g` at step `t`, row `b`. -/
def gate (x : SX.Idx → EReal) (h0 : SB.Idx → EReal) (wih whh : SW.Idx → EReal) (bih bhh : SV.Idx → EReal)
    (t : Fin 4096) (b : Fin 32) (g : Fin 512) : EReal :=
  inProj x wih t b g + stepFree h0 whh bih bhh b g

/-- The other grouping of the same three summands. -/
theorem gate_assoc (x : SX.Idx → EReal) (h0 : SB.Idx → EReal) (wih whh : SW.Idx → EReal) (bih bhh : SV.Idx → EReal)
    (t : Fin 4096) (b : Fin 32) (g : Fin 512) :
    (inProj x wih t b g + hidProj h0 whh b g) + (bih (ix1 g) + bhh (ix1 g)) = gate x h0 wih whh bih bhh t b g := by
  unfold gate stepFree; exact add_assoc _ _ _

/-- Lane `d` of gate `q` (0 input, 1 forget, 2 candidate, 3 output) is column `128·q + d`. -/
def col (q : Fin 4) (d : Fin 128) : Fin 512 := ⟨128 * q.val + d.val, by have := q.isLt; have := d.isLt; omega⟩

theorem col_val (q : Fin 4) (d : Fin 128) : (col q d).val = 128 * q.val + d.val := rfl

/-- The new cell state from a row of pre-activations `gt` and the old state's entry `c0`. -/
def cellC (gt : Fin 512 → EReal) (c0 : EReal) (d : Fin 128) : EReal :=
  Ideal.logistic (gt (col 1 d)) * c0 + Ideal.logistic (gt (col 0 d)) * Ideal.tanh (gt (col 2 d))

/-- The new hidden state, with the additive noise entry `nz`. -/
def cellH (gt : Fin 512 → EReal) (c0 nz : EReal) (d : Fin 128) : EReal :=
  Ideal.logistic (gt (col 3 d)) * Ideal.tanh (cellC gt c0 d) + nz

/-- The logistic function spelt out with the float word of `1.0` (as a program that expands it into negate,
    exponential, add and divide writes it) is the logistic function: the word denotes `1`. -/
theorem logistic_spelt (z : EReal) :
    Ideal.div (Ideal.ofBits .f32 0x3F800000#32) (Ideal.ofBits .f32 0x3F800000#32 + Ideal.exp (-z)) = Ideal.logistic z := by
  rw [Cert.Words.one]; rfl

/-- Result 0: the hidden state of every step. -/
def outputs (x : SX.Idx → EReal) (h0 c0 nz : SB.Idx → EReal) (wih whh : SW.Idx → EReal) (bih bhh : SV.Idx → EReal) :
    SX.Idx → EReal :=
  fun i => cellH (gate x h0 wih whh bih bhh (i 0) (i 1)) (c0 (ix2 (i 1) (i 2))) (nz (ix2 (i 1) (i 2))) (i 2)

/-- Result 1: the hidden state of the last step. -/
def hLast (x : SX.Idx → EReal) (h0 c0 nz : SB.Idx → EReal) (wih whh : SW.Idx → EReal) (bih bhh : SV.Idx → EReal) :
    SB.Idx → EReal :=
  fun j => cellH (gate x h0 wih whh bih bhh 4095 (j 0)) (c0 (ix2 (j 0) (j 1))) (nz (ix2 (j 0) (j 1))) (j 1)

/-- Result 2: the cell state of the last step. -/
def cLast (x : SX.Idx → EReal) (h0 c0 : SB.Idx → EReal) (wih whh : SW.Idx → EReal) (bih bhh : SV.Idx → EReal) :
    SB.Idx → EReal :=
  fun j => cellC (gate x h0 wih whh bih bhh 4095 (j 0)) (c0 (ix2 (j 0) (j 1))) (j 1)

/-- The last step's hidden state is the last row block of the sequence of hidden states. -/
theorem hLast_eq_outputs (x : SX.Idx → EReal) (h0 c0 nz : SB.Idx → EReal) (wih whh : SW.Idx → EReal) (bih bhh : SV.Idx → EReal)
    (b : Fin 32) (d : Fin 128) :
    hLast x h0 c0 nz wih whh bih bhh (ix2 b d) = outputs x h0 c0 nz wih whh bih bhh (ix3 4095 b d) := rfl

end Cert.Lstm

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.KPayload.lean ====
/-
  The kernel body's stored value, read at an index, is the cell.

  One chunk of 64 time steps is a pure term over the loaded values: the input block [64, 32, 128] is viewed as the
  matrix [2048, 128] whose row `r·32 + b` is step `r`, batch row `b`; that matrix is multiplied by the weight block
  [128, 512] into a zero accumulator, the product [2048, 512] is viewed back as [64, 32, 512], and the step-free term
  [32, 512], repeated over the 64 steps, is added.  So the pre-activation at `(r, b, g)` is

      Σₖ x[r, b, k] · W[k, g] + s[b, g].

  The four gates are the lane blocks at offsets 0, 128, 256, 384 of the 512 columns, which are the columns
  `col 0 d`, …, `col 3 d` of the specification; the old cell state and the noise, [32, 128], are repeated over the
  steps.  Every layout operation reads its operand at one index, named here by coordinates; a change of float format is
  the identity on the extended reals; what is left is, term for term, `cellH`.
-/
import proofs.«159641_j54614804136123_2_alg».proof.Proof.Gen.KernelIdeal.Skeleton
import proofs.«159641_j54614804136123_2_alg».proof.Proof.Cell
import proofs.«159641_j54614804136123_2_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LstmValue

open Cert.KernelIdeal Cert.KernelIdeal.Gen Idealize.ShloMosaic Idealize.ShloMosaic.ValueIdx

variable [Cert.KernelIdeal.Facts]

/-! ## A block repeated along a leading unit axis -/

/-- A `[1, a, b]` array broadcast to `[m, a, b]` reads, at `(p, i, j)`, the operand's one block at `(i, j)`. -/
theorem broadcastTo_1ab_mab_apply {α : Type} {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A `[a, b]` array given a leading unit axis and repeated `m` times along it reads, at `(p, i, j)`, the array at
    `(i, j)`. -/
theorem repeat_apply {α : Type} {m a b : ℕ} (x : (⟨2, ![a, b]⟩ : Shape).Idx → α)
    (hc : (⟨2, ![a, b]⟩ : Shape).ShapeCasts ⟨3, ![1, a, b]⟩) (hb : (⟨3, ![1, a, b]⟩ : Shape).Broadcasts ⟨3, ![m, a, b]⟩)
    (p : Fin m) (i : Fin a) (j : Fin b) :
    broadcastTo ⟨3, ![m, a, b]⟩ (shapeCast ⟨3, ![1, a, b]⟩ x hc) hb (ix3 p i j) = x (ix2 i j) :=
  (broadcastTo_1ab_mab_apply _ hb p i j).trans (shapeCast_ab_1ab_apply x hc 0 i j)

/-! ## The product of the step matrix and the weight block -/

/-- The dot's dimension numbers: rows × contraction times contraction × columns. -/
abbrev D := dot_S2048x128_S128x512_S2048x512_1_0_0_1_n_n

theorem lhs_0 (i : S2048x512.Idx) (q : D.contr.Idx) : (D.lhsIdx i q 0).val = (i 0).val := by
  unfold DotDims.lhsIdx
  rw [dif_neg (show ¬(0 : Fin S2048x128.rank) ∈ D.lhsBatch by decide), dif_pos (show (0 : Fin S2048x128.rank) ∈ D.lhsNonContracting by decide)]
  rfl
theorem lhs_1 (i : S2048x512.Idx) (q : D.contr.Idx) : (D.lhsIdx i q 1).val = (q ⟨0, by decide⟩).val :=
  D.lhsIdx_val_of_single rfl i q
theorem rhs_0 (i : S2048x512.Idx) (q : D.contr.Idx) : (D.rhsIdx i q 0).val = (q ⟨0, by decide⟩).val :=
  D.rhsIdx_val_of_single rfl i q
theorem rhs_1 (i : S2048x512.Idx) (q : D.contr.Idx) : (D.rhsIdx i q 1).val = (i 1).val := by
  unfold DotDims.rhsIdx
  rw [dif_neg (show ¬(1 : Fin S128x512.rank) ∈ D.rhsBatch by decide), dif_pos (show (1 : Fin S128x512.rank) ∈ D.rhsNonContracting by decide)]
  rfl

/-- The product into the zero accumulator, read at row `n` and column `g`, is Σₖ A[n, k] · B[k, g]. -/
theorem matmul_ix2_apply (A : FVec Ideal S2048x128 .bf16) (B : FVec Ideal S128x512 .bf16) (n : Fin 2048) (g : Fin 512) :
    matmul D none A B (constant S2048x512 .f32 0x00000000#32) (ix2 n g) = ∑ k : Fin 128, A (ix2 n k) * B (ix2 k g) := by
  simp only [matmul]
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx (ix2 n g) ((ValueIdx.contrEquiv1 D 128 rfl rfl).symm k) = ix2 n k := funext fun a => Fin.ext (by
    match a with
    | ⟨0, _⟩ => exact lhs_0 _ _
    | ⟨1, _⟩ => exact (lhs_1 _ _).trans hk)
  have er : D.rhsIdx (ix2 n g) ((ValueIdx.contrEquiv1 D 128 rfl rfl).symm k) = ix2 k g := funext fun a => Fin.ext (by
    match a with
    | ⟨0, _⟩ => exact (rhs_0 _ _).trans hk
    | ⟨1, _⟩ => exact rhs_1 _ _)
  rw [el, er]

/-! ## The pre-activations of the chunk -/

/-- The pre-activations of the chunk, [64, 32, 512]: the product viewed by step and batch row, plus the step-free
    term repeated over the steps. -/
def pre (v0 : Vec Ideal S128x512 .bf16) (v2 : Vec Ideal S32x512 .f32) (v12 : Vec Ideal S64x32x128 .f32) :
    FVec Ideal S64x32x512 .f32 :=
  addf
    (shapeCast S64x32x512
      (matmul D none
        (truncf .bf16 (shapeCast S2048x128 v12 shapeCasts_S64x32x128_S2048x128 : FVec Ideal S2048x128 .f32) bitsLt_bf16_f32)
        (shapeCast S128x512 v0 shapeCasts_S128x512_S128x512 : FVec Ideal S128x512 .bf16) (constant S2048x512 .f32 0x00000000#32))
      shapeCasts_S2048x512_S64x32x512)
    (broadcastTo S64x32x512
      (shapeCast S1x32x512 (shapeCast S32x512 v2 shapeCasts_S32x512_S32x512 : FVec Ideal S32x512 .f32) shapeCasts_S32x512_S1x32x512)
      broadcasts_S1x32x512_S64x32x512)

/-- Row `r·32 + b` of the step matrix. -/
def row (r : Fin 64) (b : Fin 32) : Fin 2048 := ⟨r.val * 32 + b.val, by have := r.isLt; have := b.isLt; omega⟩

/-- At step `r`, batch row `b`, column `g`: Σₖ x[r, b, k] · W[k, g] + s[b, g]. -/
theorem pre_apply (v0 : Vec Ideal S128x512 .bf16) (v2 : Vec Ideal S32x512 .f32) (v12 : Vec Ideal S64x32x128 .f32)
    (r : Fin 64) (b : Fin 32) (g : Fin 512) :
    pre v0 v2 v12 (ix3 r b g) = (∑ k : Fin 128, v12 (ix3 r b k) * v0 (ix2 k g)) + v2 (ix2 b g) := by
  unfold pre
  rw [addf_apply]
  refine congrArg₂ (· + ·) ?_ ?_
  · refine (Cert.LibLayout.shapeCast_nc_abc_apply _ shapeCasts_S2048x512_S64x32x512 r b g (row r b) rfl).trans ?_
    refine (matmul_ix2_apply _ _ (row r b) g).trans ?_
    refine Finset.sum_congr rfl fun k _ => ?_
    rw [shapeCast_self, truncf_apply]
    exact congrArg (· * v0 (ix2 k g)) (Cert.LibLayout.shapeCast_abc_nc_apply v12 _ r b k (row r b) rfl)
  · rw [shapeCast_self]
    exact repeat_apply v2 _ _ r b g

/-! ## The gates: lane blocks of the 512 columns -/

/-- The lane block at offset `o` reads, at `(r, b, d)`, column `o + d`. -/
theorem lanes_apply {α : Type} (o : ℕ) (X : S64x32x512.Idx → α) (h : S64x32x512.Slices ![0, 0, o] S64x32x128)
    (r : Fin 64) (b : Fin 32) (d : Fin 128) (g : Fin 512) (hg : g.val = o + d.val) :
    extractStridedSlice S64x32x128 ![0, 0, o] X h (ix3 r b d) = X (ix3 r b g) :=
  extractStridedSlice_apply _ _ _ _ _ (fun ax => by
    match ax with
    | ⟨0, _⟩ => exact (Nat.zero_add _).symm
    | ⟨1, _⟩ => exact (Nat.zero_add _).symm
    | ⟨2, _⟩ => exact hg)

/-- The logistic function and the hyperbolic tangent act entry by entry. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-! ## The stored value -/

/-- The stored value with its pointwise operations read at the index: the layout operations are still to be read. -/
theorem pay_pointwise (v0 : Vec Ideal S128x512 .bf16) (v2 : Vec Ideal S32x512 .f32) (v4 v5 : Vec Ideal S32x128 .f32) (v12 : Vec Ideal S64x32x128 .f32)
    (j : S64x32x128.Idx) :
    Gen.k0_pay1 (F := Ideal) v0 v2 v4 v5 v12 j =
      Ideal.logistic (extractStridedSlice S64x32x128 ![0, 0, 384] (pre v0 v2 v12) slices_S64x32x512_o0_0_384_S64x32x128 j)
          * Ideal.tanh
              (Ideal.logistic (extractStridedSlice S64x32x128 ![0, 0, 128] (pre v0 v2 v12) slices_S64x32x512_o0_0_128_S64x32x128 j)
                  * broadcastTo S64x32x128 (shapeCast S1x32x128 v4 shapeCasts_S32x128_S1x32x128) broadcasts_S1x32x128_S64x32x128 j
                + Ideal.logistic (extractStridedSlice S64x32x128 ![0, 0, 0] (pre v0 v2 v12) slices_S64x32x512_o0_0_0_S64x32x128 j)
                  * Ideal.tanh (extractStridedSlice S64x32x128 ![0, 0, 256] (pre v0 v2 v12) slices_S64x32x512_o0_0_256_S64x32x128 j))
        + broadcastTo S64x32x128 (shapeCast S1x32x128 v5 shapeCasts_S32x128_S1x32x128) broadcasts_S1x32x128_S64x32x128 j := rfl

theorem pay_apply (v0 : Vec Ideal S128x512 .bf16) (v2 : Vec Ideal S32x512 .f32) (v4 v5 : Vec Ideal S32x128 .f32) (v12 : Vec Ideal S64x32x128 .f32)
    (r : Fin 64) (b : Fin 32) (d : Fin 128) :
    Gen.k0_pay1 (F := Ideal) v0 v2 v4 v5 v12 (ix3 r b d) =
      Cert.Lstm.cellH (fun g : Fin 512 => (∑ k : Fin 128, v12 (ix3 r b k) * v0 (ix2 k g)) + v2 (ix2 b g)) (v4 (ix2 b d)) (v5 (ix2 b d)) d := by
  rw [pay_pointwise,
    lanes_apply 384 _ _ r b d (Cert.Lstm.col 3 d) rfl, lanes_apply 128 _ _ r b d (Cert.Lstm.col 1 d) rfl,
    lanes_apply 0 _ _ r b d (Cert.Lstm.col 0 d) rfl, lanes_apply 256 _ _ r b d (Cert.Lstm.col 2 d) rfl,
    pre_apply, pre_apply, pre_apply, pre_apply, repeat_apply v4, repeat_apply v5]
  rfl

end Cert.KernelIdeal.LstmValue

end
-- ==== Proof.KBlock.lean ====
/-
  One grid point's output block, as a function of the blocks the body loaded.

  Entry `(R, b, d)` of the 256-row block — step `R` of the block, batch row `b`, lane `d` — is the cell computed from
  row `(R, b)` of the input block: the four gates' pre-activations are that row times the weight block plus the
  step-free term's row `b`.  Chunk `k` of the body's loop computes exactly the rows `64·k … 64·k + 63` of this
  function, and the four chunks tile the block.
-/
import proofs.«159641_j54614804136123_2_alg».proof.Proof.KPieces
import proofs.«159641_j54614804136123_2_alg».proof.Proof.KPayload
import proofs.«159641_j54614804136123_2_alg».proof.Proof.Cell
import Idealize.ShloMosaic.Lib.ValueIdx

set_option maxRecDepth 16384

noncomputable section

namespace Cert.KernelIdeal.LstmValue

open Cert.KernelIdeal Cert.KernelIdeal.Gen
open Idealize.ShloMosaic Idealize.ShloMosaic.TcCoe Idealize.ShloMosaic.ValueIdx
open Idealize.SL Idealize.SL.Sem

/-- The block as one function of its index and of the loaded blocks: the input block `x0`, the weight block `x1`,
    the step-free term `x2`, `c0` = `x3`, the noise `x4`. -/
def blockFn (x0 : Vec Ideal S256x32x128 .f32) (x1 : Vec Ideal S128x512 .bf16) (x2 : Vec Ideal S32x512 .f32)
    (x3 x4 : Vec Ideal S32x128 .f32) : S256x32x128.Idx → EReal :=
  fun y => Cert.Lstm.cellH (fun g : Fin 512 => (∑ k : Fin 128, x0 (ix3 (y 0) (y 1) k) * x1 (ix2 k g)) + x2 (ix2 (y 1) g))
    (x3 (ix2 (y 1) (y 2))) (x4 (ix2 (y 1) (y 2))) (y 2)

theorem trips_le (k : Fin k0_t1_loop.trips) : k.val < 4 := Nat.lt_of_lt_of_le k.isLt k0_t1_abs.2.1

/-- Row `r` of chunk `k` is row `64·k + r` of the block. -/
theorem chunk_emb (k : Fin k0_t1_loop.trips) (r : Fin 64) (b : Fin 32) (d : Fin 128) (h : 64 * k.val + r.val < 256) :
    (chunkRect k).emb (ix3 r b d) = ix3 (⟨64 * k.val + r.val, h⟩ : Fin 256) b d := by
  have e := k0_off1_eq k
  funext a; apply Fin.ext
  match a with
  | ⟨0, _⟩ =>
    show k0_off1 k 0 + 1 * r.val = 64 * k.val + r.val
    rw [e]; show 64 * k.val + 1 * r.val = 64 * k.val + r.val; omega
  | ⟨1, _⟩ =>
    show k0_off1 k 1 + 1 * b.val = b.val
    rw [e]; show 0 + 1 * b.val = b.val; omega
  | ⟨2, _⟩ =>
    show k0_off1 k 2 + 1 * d.val = d.val
    rw [e]; show 0 + 1 * d.val = d.val; omega

/-- What the body's run leaves in the output block is `blockFn` of the loaded blocks. -/
theorem block_eq (c : Dev nD) (i : grid0.Coords) (arg1 : Memref sig .tc .vmem S256x32x128 .f32) (harg1 : arg1.IsWhole) (arg2 : Memref sig .tc .vmem S128x512 .bf16) (harg2 : arg2.IsWhole) (arg3 : Memref sig .tc .vmem S32x512 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S256x32x128 .f32) (harg6 : arg6.IsWhole)
    (x0 : Vec Ideal S256x32x128 .f32) (x1 : Vec Ideal S128x512 .bf16) (x2 : Vec Ideal S32x512 .f32) (x3 x4 : Vec Ideal S32x128 .f32) :
    out0_A_5 (F := Ideal) c i arg1 harg1 arg2 harg2 arg3 harg3 arg4 harg4 arg5 harg5 arg6 harg6 x0 x1 x2 x3 x4 = blockFn x0 x1 x2 x3 x4 := by
  refine out_eq_of_chunks c i arg1 harg1 arg2 harg2 arg3 harg3 arg4 harg4 arg5 harg5 arg6 harg6 x0 x1 x2 x3 x4 (blockFn x0 x1 x2 x3 x4) fun k x => ?_
  obtain ⟨r, b, d, rfl⟩ : ∃ (r : Fin 64) (b : Fin 32) (d : Fin 128), x = ix3 r b d := ⟨x 0, x 1, x 2, eq_ix3 x⟩
  have hk := trips_le k
  have hr : 64 * k.val + r.val < 256 := by have := r.isLt; omega
  rw [pay_apply, chunk_emb k r b d hr]
  unfold blockFn
  have hld : ∀ kk : Fin 128, View.ld x0 (chunkRect k) (ix3 r b kk) = x0 (ix3 (⟨64 * k.val + r.val, hr⟩ : Fin 256) b kk) := fun kk => by
    show x0 ((chunkRect k).emb (ix3 r b kk)) = _
    rw [chunk_emb k r b kk hr]
  simp only [hld]

/-- At every grid point, what the output's staging block holds after the body is `blockFn` of the point's input
    blocks. -/
theorem outsAt0_eq (m : (ℓ : Loc nD τ sig) → Buf (Elt Ideal) ℓ) (c : Dev nD) (t : Fin cfg0.N) :
    outsAt0 m c t = blockFn (iblk m c 0 t) (iblk m c 1 t) (iblk m c 2 t) (iblk m c 3 t) (iblk m c 4 t) := by
  unfold outsAt0
  exact block_eq c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t)

end Cert.KernelIdeal.LstmValue

end
-- ==== Proof.KHost.lean ====
/-
  The host operations of the kernel's program, before and after the pallas_call region, read at an index.

  Before the region the program forms, on the host, two arrays the region then reads.  The first is the part of the
  pre-activation that does not depend on the step,

      s[b, g] = Σₖ h0[b, k] · W_hh[g, k] + (b_ih[g] + b_hh[g]),

  as the product of h0 [32, 128] with the transpose [128, 512] of W_hh, plus the sum of the two biases repeated over the
  32 rows.  The second is the transpose [128, 512] of W_ih, whose entry (k, g) is W_ih[g, k]; its change of float format
  is the identity on the extended reals.

  After the region the program recomputes the last step's cell state on the host: the last row block x[4095] of the
  input, [32, 128], times the transposed W_ih, plus s, gives the 512 pre-activations of every batch row; the gates are
  the lane blocks at columns 0, 128 and 256, the logistic function is spelt out as 1 / (1 + e^(-z)), and the result is
  σ(forget)·c0 + σ(input)·tanh(candidate).  The last step's hidden state is the last row block of the region's output.
-/
import proofs.«159641_j54614804136123_2_alg».proof.Proof.Gen.KernelIdeal.Frame
import proofs.«159641_j54614804136123_2_alg».proof.Proof.Cell
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.LstmValue

open Cert.KernelIdeal Cert.KernelIdeal.Gen Idealize.ShloMosaic Idealize.ShloMosaic.TcCoe Idealize.ShloMosaic.Tactic
open Idealize.SL Idealize.SL.Sem Idealize.ShloMosaic.ValueIdx Idealize.ShloMosaic.StableHlo
open Idealize.ShloMosaic.Pipeline (Dat Cfg Window)

variable (m : (ℓ : Loc nD τ sig) → Buf (Elt Ideal) ℓ)

/-! ## The product [32, 128] × [128, 512] on the host, at an entry -/

local notation "D₀" => dot_S32x128_S128x512_S32x512_1_0_0_1_n_n

/-- The left operand's row coordinate is the result's. -/
theorem dot_lhs_0 (i : S32x512.Idx) (q : (dot_S32x128_S128x512_S32x512_1_0_0_1_n_n).contr.Idx) :
    ((dot_S32x128_S128x512_S32x512_1_0_0_1_n_n).lhsIdx i q 0).val = (i 0).val := by
  unfold DotDims.lhsIdx
  rw [dif_neg (show ¬(0 : Fin S32x128.rank) ∈ (dot_S32x128_S128x512_S32x512_1_0_0_1_n_n).lhsBatch by decide),
    dif_pos (show (0 : Fin S32x128.rank) ∈ (dot_S32x128_S128x512_S32x512_1_0_0_1_n_n).lhsNonContracting by decide)]
  rfl
/-- The left operand's column coordinate is the contraction's. -/
theorem dot_lhs_1 (i : S32x512.Idx) (q : (dot_S32x128_S128x512_S32x512_1_0_0_1_n_n).contr.Idx) :
    ((dot_S32x128_S128x512_S32x512_1_0_0_1_n_n).lhsIdx i q 1).val = (q ⟨0, by decide⟩).val :=
  (dot_S32x128_S128x512_S32x512_1_0_0_1_n_n).lhsIdx_val_of_single rfl i q
/-- The right operand's row coordinate is the contraction's. -/
theorem dot_rhs_0 (i : S32x512.Idx) (q : (dot_S32x128_S128x512_S32x512_1_0_0_1_n_n).contr.Idx) :
    ((dot_S32x128_S128x512_S32x512_1_0_0_1_n_n).rhsIdx i q 0).val = (q ⟨0, by decide⟩).val :=
  (dot_S32x128_S128x512_S32x512_1_0_0_1_n_n).rhsIdx_val_of_single rfl i q
/-- The right operand's column coordinate is the result's. -/
theorem dot_rhs_1 (i : S32x512.Idx) (q : (dot_S32x128_S128x512_S32x512_1_0_0_1_n_n).contr.Idx) :
    ((dot_S32x128_S128x512_S32x512_1_0_0_1_n_n).rhsIdx i q 1).val = (i 1).val := by
  unfold DotDims.rhsIdx
  rw [dif_neg (show ¬(1 : Fin S128x512.rank) ∈ (dot_S32x128_S128x512_S32x512_1_0_0_1_n_n).rhsBatch by decide),
    dif_pos (show (1 : Fin S128x512.rank) ∈ (dot_S32x128_S128x512_S32x512_1_0_0_1_n_n).rhsNonContracting by decide)]
  rfl

/-- The host's product of a [32, 128] array with a [128, 512] array, in any two float formats, is at the entry (b, g)
    the sum over k of l[b, k] · r[k, g]. -/
theorem hostDot_apply {φ₁ φ₂ : FTy} (l : FVec Ideal S32x128 φ₁) (r : FVec Ideal S128x512 φ₂) (b : Fin 32) (g : Fin 512) :
    (Host.dotGeneral (F := Ideal) dot_S32x128_S128x512_S32x512_1_0_0_1_n_n none l r : FVec Ideal S32x512 .f32) (ix2 b g)
      = ∑ k : Fin 128, l (ix2 b k) * r (ix2 k g) := by
  simp only [Host.dotGeneral]
  rw [Ideal.dotGeneral_apply, ← Equiv.sum_comp (ValueIdx.contrEquiv1 dot_S32x128_S128x512_S32x512_1_0_0_1_n_n 128 rfl rfl).symm]
  refine Finset.sum_congr rfl fun k _ => ?_
  have hk := ValueIdx.contrEquiv1_symm_val dot_S32x128_S128x512_S32x512_1_0_0_1_n_n 128 rfl rfl k
  have el : (dot_S32x128_S128x512_S32x512_1_0_0_1_n_n).lhsIdx (ix2 b g) ((ValueIdx.contrEquiv1 dot_S32x128_S128x512_S32x512_1_0_0_1_n_n 128 rfl rfl).symm k) = ix2 b k := funext fun a => Fin.ext (by
    match a with
    | ⟨0, _⟩ => exact dot_lhs_0 _ _
    | ⟨1, _⟩ => exact (dot_lhs_1 _ _).trans hk)
  have er : (dot_S32x128_S128x512_S32x512_1_0_0_1_n_n).rhsIdx (ix2 b g) ((ValueIdx.contrEquiv1 dot_S32x128_S128x512_S32x512_1_0_0_1_n_n 128 rfl rfl).symm k) = ix2 k g := funext fun a => Fin.ext (by
    match a with
    | ⟨0, _⟩ => exact (dot_rhs_0 _ _).trans hk
    | ⟨1, _⟩ => exact dot_rhs_1 _ _)
  rw [el, er]

/-! ## The transpose of a weight, and the biases repeated over the rows, at an entry -/

/-- The transpose [128, 512] of a [512, 128] array reads (k, g) at (g, k). -/
theorem transpose_w_apply {α : Type} (w : S512x128.Idx → α) (k : Fin 128) (g : Fin 512) :
    transpose S128x512 [1, 0] w transposes_S512x128_S128x512_1_0 (ix2 k g) = w (ix2 g k) :=
  transpose_apply [1, 0] w transposes_S512x128_S128x512_1_0 (ix2 k g) (ix2 g k) (fun a => match a with
    | ⟨0, _⟩ => rfl
    | ⟨1, _⟩ => rfl)

/-- A [512] array laid out as one row and repeated over 32 rows reads (b, g) at g. -/
theorem bias_rows_apply {α : Type} (v : S512.Idx → α) (b : Fin 32) (g : Fin 512) :
    broadcastInDim S32x512 ![0, 1] bcast_S1x512_S32x512_0_1 (broadcastInDim S1x512 ![1] bcast_S512_S1x512_1 v) (ix2 b g) = v (ix1 g) := by
  refine (broadcastInDim_apply _ bcast_S1x512_S32x512_0_1 _ (ix2 b g) (ix2 (0 : Fin 1) g) (fun a => match a with
    | ⟨0, _⟩ => by show 0 = if (1 : Nat) = 1 then 0 else b.val; rw [if_pos rfl]
    | ⟨1, _⟩ => by show g.val = if (512 : Nat) = 1 then 0 else g.val; rw [if_neg (by decide)])).trans ?_
  exact broadcastInDim_apply _ bcast_S512_S1x512_1 v (ix2 (0 : Fin 1) g) (ix1 g) (fun a => match a with
    | ⟨0, _⟩ => by show g.val = if (512 : Nat) = 1 then 0 else g.val; rw [if_neg (by decide)])

/-! ## The two arrays the region reads, at an entry -/

/-- The transpose of a weight, in the narrower float format. -/
def weightT (w : FVec Ideal S512x128 .f32) : FVec Ideal S128x512 .bf16 :=
  truncf .bf16 (transpose S128x512 [1, 0] w transposes_S512x128_S128x512_1_0) bitsLt_bf16_f32

/-- Its entry (k, g) is the weight's entry (g, k): the change of format is the identity on the extended reals. -/
theorem weightT_apply (w : FVec Ideal S512x128 .f32) (k : Fin 128) (g : Fin 512) : weightT w (ix2 k g) = w (ix2 g k) :=
  transpose_w_apply w k g

/-- The step-free part of the pre-activations as the host forms it: h0 times the transpose of W_hh, plus the sum of the
    two biases repeated over the rows. -/
def stepFreeArr (h0 : FVec Ideal S32x128 .f32) (whh : FVec Ideal S512x128 .f32) (bih bhh : FVec Ideal S512 .f32) :
    FVec Ideal S32x512 .f32 :=
  addf (Host.dotGeneral (F := Ideal) dot_S32x128_S128x512_S32x512_1_0_0_1_n_n none h0
      (transpose S128x512 [1, 0] whh transposes_S512x128_S128x512_1_0))
    (broadcastInDim S32x512 ![0, 1] bcast_S1x512_S32x512_0_1 (broadcastInDim S1x512 ![1] bcast_S512_S1x512_1 (addf bih bhh)))

/-- Its entry (b, g) is the specification's step-free term. -/
theorem stepFreeArr_apply (h0 : FVec Ideal S32x128 .f32) (whh : FVec Ideal S512x128 .f32) (bih bhh : FVec Ideal S512 .f32)
    (b : Fin 32) (g : Fin 512) : stepFreeArr h0 whh bih bhh (ix2 b g) = Cert.Lstm.stepFree h0 whh bih bhh b g := by
  unfold stepFreeArr Cert.Lstm.stepFree Cert.Lstm.hidProj
  refine (ValueIdx.addf_apply _ _ (ix2 b g)).trans ?_
  refine congrArg₂ (· + ·) ?_ ?_
  · refine (hostDot_apply _ _ b g).trans ?_
    refine Finset.sum_congr rfl fun k _ => ?_
    exact congrArg (h0 (ix2 b k) * ·) (transpose_w_apply whh k g)
  · exact bias_rows_apply (addf bih bhh) b g

/-- The region's weight array is the transpose of W_ih: its entry (k, g) is W_ih[g, k]. -/
theorem V_wih (c : Dev nD) (k : Fin 128) (g : Fin 512) :
    V m c main_v7 (ix2 k g) = m ((c : Thread nD τ).loc main_arg4) (ix2 g k) := by
  have e : V m c main_v7 = weightT (m ((c : Thread nD τ).loc main_arg4)) := by
    show StableHlo.after hostOps0 (fun b => m (c, b)) (Proc.devRef .tc main_v7) = _
    after_results; rfl
  rw [e]
  exact weightT_apply _ k g

/-- The region's step-free array is h0's projection plus the two biases. -/
theorem V_stepFree (c : Dev nD) (b : Fin 32) (g : Fin 512) :
    V m c main_v5 (ix2 b g) = Cert.Lstm.stepFree (m ((c : Thread nD τ).loc main_arg1)) (m ((c : Thread nD τ).loc main_arg5))
      (m ((c : Thread nD τ).loc main_arg6)) (m ((c : Thread nD τ).loc main_arg7)) b g := by
  have e : V m c main_v5 = stepFreeArr (m ((c : Thread nD τ).loc main_arg1)) (m ((c : Thread nD τ).loc main_arg5))
      (m ((c : Thread nD τ).loc main_arg6)) (m ((c : Thread nD τ).loc main_arg7)) := by
    show StableHlo.after hostOps0 (fun b => m (c, b)) (Proc.devRef .tc main_v5) = _
    after_results; rfl
  rw [e]
  exact stepFreeArr_apply _ _ _ _ b g

end Cert.KernelIdeal.LstmValue

end
-- ==== Proof.KPoint.lean ====
/-
  The output block of every grid point is the block of the specification's `outputs`.

  Grid point `t` covers the time steps `256·t … 256·t + 255`.  Its input block is those steps of the input sequence;
  the other four windows are whole arrays, the same at every point: the transposed input weights, the step-free term
  (h0's projection plus the biases), `c0` and the noise.  Substituting what these arrays hold into the block function
  gives, at entry `(R, b, d)` of the block, the specification's cell at step `256·t + R`.
-/
import proofs.«159641_j54614804136123_2_alg».proof.Proof.KBlock
import proofs.«159641_j54614804136123_2_alg».proof.Proof.KHost
import proofs.«159641_j54614804136123_2_alg».proof.Proof.Cell
import Idealize.ShloMosaic.Lib.ValueIdx
import Idealize.ShloMosaic.Lib.Pipeline.Value

set_option maxRecDepth 16384

noncomputable section

namespace Cert.KernelIdeal.LstmValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The specification's first result over the program's argument arrays as launched. -/
abbrev specOut (c : Dev nD) : S4096x32x128.Idx → EReal :=
  Cert.Lstm.outputs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The printed index maps, decided over the 16 grid points: the input and the output move together along the time
    axis, one block per point; every other coordinate of every window's block index is zero. -/
theorem idx_facts : ∀ t : Fin cfg0.N,
    win0_0.index t (0 : Fin 3) = win0_5.index t (0 : Fin 3) ∧ win0_0.index t (1 : Fin 3) = 0 ∧ win0_0.index t (2 : Fin 3) = 0
    ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 15 :=
  (by decide +kernel : ∀ t : Fin grid0.N, _)

/-- Entry `(R, b, d)` of point `t`'s output block sits in the array at step `T = 256·(block index) + R`. -/
theorem out_emb (t : Fin cfg0.N) (R : Fin 256) (b : Fin 32) (d : Fin 128) (T : Fin 4096)
    (hT : T.val = win0_5.index t (0 : Fin 3) * 256 + R.val) :
    ((cfg0.win 5).blk t).view.emb (ix3 R b d) = ix3 T b d := by
  obtain ⟨-, -, -, e1, e2, -⟩ := idx_facts t
  funext a; apply Fin.ext
  match a with
  | ⟨0, _⟩ => show win0_5.index t (0 : Fin 3) * 256 + 1 * R.val = T.val; omega
  | ⟨1, _⟩ => show win0_5.index t (1 : Fin 3) * 32 + 1 * b.val = b.val; omega
  | ⟨2, _⟩ => show win0_5.index t (2 : Fin 3) * 128 + 1 * d.val = d.val; omega

/-- The input block at point `t` holds the steps of the input sequence that the output block covers. -/
theorem read_x (c : Dev nD) (t : Fin cfg0.N) (R : Fin 256) (b : Fin 32) (k : Fin 128) (T : Fin 4096)
    (hT : T.val = win0_5.index t (0 : Fin 3) * 256 + R.val) :
    iblk m c 0 t (ix3 R b k) = m ((c : Thread nD τ).loc main_arg0) (ix3 T b k) := by
  obtain ⟨e0, e1, e2, -⟩ := idx_facts t
  have h : ((cfg0.win 0).blk t).view.emb (ix3 R b k) = ix3 T b k := by
    funext a; apply Fin.ext
    match a with
    | ⟨0, _⟩ => show win0_0.index t (0 : Fin 3) * 256 + 1 * R.val = T.val; omega
    | ⟨1, _⟩ => show win0_0.index t (1 : Fin 3) * 32 + 1 * b.val = b.val; omega
    | ⟨2, _⟩ => show win0_0.index t (2 : Fin 3) * 128 + 1 * k.val = k.val; omega
  show V m c main_arg0 (((cfg0.win 0).blk t).view.emb (ix3 R b k)) = _
  rw [h, V_main_arg0]

/-- The weight block is the whole transposed weight array. -/
theorem read_w (c : Dev nD) (t : Fin cfg0.N) (k : Fin 128) (g : Fin 512) :
    iblk m c 1 t (ix2 k g) = m ((c : Thread nD τ).loc main_arg4) (ix2 g k) := by
  obtain ⟨-, -, -, -, -, e0, e1, -⟩ := idx_facts t
  have h : ((cfg0.win 1).blk t).view.emb (ix2 k g) = ix2 k g := by
    funext a; apply Fin.ext
    match a with
    | ⟨0, _⟩ => show win0_1.index t (0 : Fin 2) * 128 + 1 * k.val = k.val; omega
    | ⟨1, _⟩ => show win0_1.index t (1 : Fin 2) * 512 + 1 * g.val = g.val; omega
  show V m c main_v7 (((cfg0.win 1).blk t).view.emb (ix2 k g)) = _
  rw [h, V_wih]

/-- The step-free block is the whole step-free array. -/
theorem read_hp (c : Dev nD) (t : Fin cfg0.N) (b : Fin 32) (g : Fin 512) :
    iblk m c 2 t (ix2 b g) = Cert.Lstm.stepFree (m ((c : Thread nD τ).loc main_arg1)) (m ((c : Thread nD τ).loc main_arg5))
      (m ((c : Thread nD τ).loc main_arg6)) (m ((c : Thread nD τ).loc main_arg7)) b g := by
  obtain ⟨-, -, -, -, -, -, -, e0, e1, -⟩ := idx_facts t
  have h : ((cfg0.win 2).blk t).view.emb (ix2 b g) = ix2 b g := by
    funext a; apply Fin.ext
    match a with
    | ⟨0, _⟩ => show win0_2.index t (0 : Fin 2) * 32 + 1 * b.val = b.val; omega
    | ⟨1, _⟩ => show win0_2.index t (1 : Fin 2) * 512 + 1 * g.val = g.val; omega
  show V m c main_v5 (((cfg0.win 2).blk t).view.emb (ix2 b g)) = _
  rw [h, V_stepFree]

/-- The `c0` block is the whole array. -/
theorem read_c0 (c : Dev nD) (t : Fin cfg0.N) (b : Fin 32) (d : Fin 128) :
    iblk m c 3 t (ix2 b d) = m ((c : Thread nD τ).loc main_arg2) (ix2 b d) := by
  obtain ⟨-, -, -, -, -, -, -, -, -, e0, e1, -⟩ := idx_facts t
  have h : ((cfg0.win 3).blk t).view.emb (ix2 b d) = ix2 b d := by
    funext a; apply Fin.ext
    match a with
    | ⟨0, _⟩ => show win0_3.index t (0 : Fin 2) * 32 + 1 * b.val = b.val; omega
    | ⟨1, _⟩ => show win0_3.index t (1 : Fin 2) * 128 + 1 * d.val = d.val; omega
  show V m c main_arg2 (((cfg0.win 3).blk t).view.emb (ix2 b d)) = _
  rw [h, V_main_arg2]

/-- The noise block is the whole array. -/
theorem read_nz (c : Dev nD) (t : Fin cfg0.N) (b : Fin 32) (d : Fin 128) :
    iblk m c 4 t (ix2 b d) = m ((c : Thread nD τ).loc main_arg3) (ix2 b d) := by
  obtain ⟨-, -, -, -, -, -, -, -, -, -, -, e0, e1, -⟩ := idx_facts t
  have h : ((cfg0.win 4).blk t).view.emb (ix2 b d) = ix2 b d := by
    funext a; apply Fin.ext
    match a with
    | ⟨0, _⟩ => show win0_4.index t (0 : Fin 2) * 32 + 1 * b.val = b.val; omega
    | ⟨1, _⟩ => show win0_4.index t (1 : Fin 2) * 128 + 1 * d.val = d.val; omega
  show V m c main_arg3 (((cfg0.win 4).blk t).view.emb (ix2 b d)) = _
  rw [h, V_main_arg3]

/-- The block function at entry `(R, b, d)`, once the loaded blocks are known to hold the arrays' entries it reads, is
    the specification's cell at step `T`: stated over arbitrary blocks, with what they hold as hypotheses. -/
theorem blockFn_spec (x0 : Vec Ideal S256x32x128 .f32) (x1 : Vec Ideal S128x512 .bf16) (x2 : Vec Ideal S32x512 .f32)
    (x3 x4 : Vec Ideal S32x128 .f32)
    (x : Cert.Lstm.SX.Idx → EReal) (h0 c0 nz : Cert.Lstm.SB.Idx → EReal) (wih whh : Cert.Lstm.SW.Idx → EReal)
    (bih bhh : Cert.Lstm.SV.Idx → EReal) (R : Fin 256) (b : Fin 32) (d : Fin 128) (T : Fin 4096)
    (hx : ∀ k : Fin 128, x0 (ix3 R b k) = x (ix3 T b k))
    (hw : ∀ (k : Fin 128) (g : Fin 512), x1 (ix2 k g) = wih (ix2 g k))
    (hp : ∀ g : Fin 512, x2 (ix2 b g) = Cert.Lstm.stepFree h0 whh bih bhh b g)
    (hc : x3 (ix2 b d) = c0 (ix2 b d)) (hn : x4 (ix2 b d) = nz (ix2 b d)) :
    blockFn x0 x1 x2 x3 x4 (ix3 R b d) = Cert.Lstm.outputs x h0 c0 nz wih whh bih bhh (ix3 T b d) := by
  show Cert.Lstm.cellH (fun g : Fin 512 => (∑ k : Fin 128, x0 (ix3 R b k) * x1 (ix2 k g)) + x2 (ix2 b g))
      (x3 (ix2 b d)) (x4 (ix2 b d)) d
    = Cert.Lstm.cellH (Cert.Lstm.gate x h0 wih whh bih bhh T b) (c0 (ix2 b d)) (nz (ix2 b d)) d
  rw [hc, hn]
  refine congrArg (fun gt => Cert.Lstm.cellH gt _ _ d) (funext fun g => ?_)
  rw [hp g]
  unfold Cert.Lstm.gate Cert.Lstm.inProj
  refine congrArg (· + _) (Finset.sum_congr rfl fun k _ => ?_)
  rw [hx k, hw k g]

/-- WHAT POINT `t` LEAVES in the output's staging block is the specification's `outputs` read through the block. -/
theorem point_eq (c : Dev nD) (t : Fin cfg0.N) (y : S256x32x128.Idx) :
    outsAt0 m c t y = specOut m c (((cfg0.win 5).blk t).view.emb y) := by
  obtain ⟨R, b, d, rfl⟩ : ∃ (R : Fin 256) (b : Fin 32) (d : Fin 128), y = ix3 R b d := ⟨y 0, y 1, y 2, eq_ix3 y⟩
  have hle : win0_5.index t (0 : Fin 3) ≤ 15 := (idx_facts t).2.2.2.2.2.2.2.2.2.2.2.2.2
  have hR := R.isLt
  have hT : win0_5.index t (0 : Fin 3) * 256 + R.val < 4096 := by omega
  rw [outsAt0_eq, out_emb t R b d ⟨_, hT⟩ rfl]
  exact blockFn_spec (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) R b d ⟨_, hT⟩
    (fun k => read_x m c t R b k ⟨_, hT⟩ rfl) (fun k g => read_w m c t k g) (fun g => read_hp m c t b g)
    (read_c0 m c t b d) (read_nz m c t b d)

end Cert.KernelIdeal.LstmValue

end
-- ==== Proof.KCover.lean ====
/-
  The output array after the run is one function, when every grid point's block is that function's block.

  The output window's block at grid point `t` is time steps `256·t … 256·t + 255` of the array `[4096, 32, 128]`
  (the index map is `(t, 0, 0)` and the block `[256, 32, 128]`), every point writes its block back, and the 16 blocks
  tile the 4096 steps: step `T` lies in the block of point `T / 256`.  So if what each point leaves in its block is
  the block of ONE function `G` of the array's indices, the array ends holding `G`.
-/
import proofs.«159641_j54614804136123_2_alg».proof.Proof.Gen.KernelIdeal.Frame
import Idealize.ShloMosaic.Lib.Pipeline.Value
import Idealize.ShloMosaic.Lib.ValueIdx

set_option maxRecDepth 16384

noncomputable section

namespace Cert.KernelIdeal.LstmValue

open Cert.KernelIdeal Cert.KernelIdeal.Gen Idealize.ShloMosaic Idealize.ShloMosaic.TcCoe Idealize.SL Idealize.SL.Sem
open Idealize.ShloMosaic.Pipeline (Dat Cfg Window)

variable {F : FTy → Type} [FloatOps F]
variable (m : (ℓ : Loc nD τ sig) → Buf (Elt F) ℓ)

/-- Every one of the 16 blocks of steps is SOME point's. -/
theorem idx_onto5 : ∀ q : Fin 16, ∃ t : Fin cfg0.N, win0_5.index t = ![q.val, 0, 0] :=
  (by decide +kernel : ∀ q : Fin 16, ∃ t : Fin grid0.N, win0_5.index t = ![q.val, 0, 0])

/-- What point `t` writes back is block `t` of `G`, when what the point leaves is `G` read through the block. -/
theorem flushed5_eq (c : Dev nD) (G : S4096x32x128.Idx → Elt F .f32)
    (hblk : ∀ (t : Fin cfg0.N) (y : S256x32x128.Idx), outsAt0 m c t y = G (((cfg0.win 5).blk t).view.emb y))
    (t : Fin cfg0.N) :
    (dats m 0 c).flushed 5 t = ((cfg0.win 5).blk t).view.read (Elt F) G := by
  show (cfg0.win 5).cut (grid0.coords t) ((dats m 0 c).after 5 t) = _
  rw [after0_5]
  funext y
  exact hblk t y

/-- An index of the array is in point `t`'s block iff each coordinate is in the block's range on its axis. -/
theorem mem_blk5 (t : Fin cfg0.N) (i : S4096x32x128.Idx) :
    i ∈ ((cfg0.win 5).blk t).view.set ↔ ∀ a : Fin 3, win0_5.index t a * S256x32x128.size a ≤ (i a).val ∧ (i a).val < win0_5.index t a * S256x32x128.size a + S256x32x128.size a := by
  show i ∈ ((View.whole main_v8).slice (win0_5.rect t)).set ↔ _
  rw [View.set_slice_whole, Rect.mem_set_unit]
  exact Iff.rfl

/-- The 16 blocks tile the array: the index `(T, b, d)` is in the block of the point whose block index is `T / 256`. -/
theorem cover5 (i : S4096x32x128.Idx) :
    ∃ t : Fin cfg0.N, (cfg0.win 5).flush t = true ∧ i ∈ ((cfg0.win 5).blk t).view.set := by
  have hi0 : (i 0).val < 4096 := (i 0).isLt
  have hi1 : (i 1).val < 32 := (i 1).isLt
  have hi2 : (i 2).val < 128 := (i 2).isLt
  obtain ⟨t, ht⟩ := idx_onto5 ⟨(i 0).val / 256, by omega⟩
  have q0 : win0_5.index t (0 : Fin 3) = (i 0).val / 256 := congrFun ht 0
  have q1 : win0_5.index t (1 : Fin 3) = 0 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 256 ≤ (i 0).val ∧ (i 0).val < win0_5.index t (0 : Fin 3) * 256 + 256; omega
  | ⟨1, _⟩ => show win0_5.index t (1 : Fin 3) * 32 ≤ (i 1).val ∧ (i 1).val < win0_5.index t (1 : Fin 3) * 32 + 32; omega
  | ⟨2, _⟩ => show win0_5.index t (2 : Fin 3) * 128 ≤ (i 2).val ∧ (i 2).val < win0_5.index t (2 : Fin 3) * 128 + 128; omega

/-- THE ARRAY after the run is `G`. -/
theorem final_of_block (c : Dev nD) (G : S4096x32x128.Idx → Elt F .f32)
    (hblk : ∀ (t : Fin cfg0.N) (y : S256x32x128.Idx), outsAt0 m c t y = G (((cfg0.win 5).blk t).view.emb y)) :
    (dats m 0 c).arrAt 5 cfg0.N = G :=
  (dats m 0 c).arrAt_eq_of_cover 5 G (fun t _ => flushed5_eq m c G hblk t) cover5

/-- The output window's index map in closed form, decided over the 16 grid points: block `(t, 0, 0)` at point `t`. -/
theorem idx5 : ∀ t : Fin cfg0.N, win0_5.index t = ![t.val, 0, 0] :=
  (by decide +kernel : ∀ t : Fin grid0.N, win0_5.index t = ![t.val, 0, 0])

/-- Point `t`'s block read at `(s, b, d)` is the array at step `256·t + s`, row `b`, lane `d`. -/
theorem blk_emb5 (t : Fin cfg0.N) (y : S256x32x128.Idx) :
    ((cfg0.win 5).blk t).view.emb y
      = ValueIdx.ix3 (n0 := 4096) (n1 := 32) (n2 := 128)
          ⟨256 * t.val + (y 0).val, by
            have ht : t.val < 16 := Nat.lt_of_lt_of_eq t.isLt N_0
            have hy : (y 0).val < 256 := (y 0).isLt
            omega⟩ (y 1) (y 2) := by
  have q0 : win0_5.index t (0 : Fin 3) = t.val := congrFun (idx5 t) 0
  have q1 : win0_5.index t (1 : Fin 3) = 0 := congrFun (idx5 t) 1
  have q2 : win0_5.index t (2 : Fin 3) = 0 := congrFun (idx5 t) 2
  funext a
  apply Fin.ext
  match a with
  | ⟨0, _⟩ => show win0_5.index t (0 : Fin 3) * 256 + 1 * (y 0).val = 256 * t.val + (y 0).val; omega
  | ⟨1, _⟩ => show win0_5.index t (1 : Fin 3) * 32 + 1 * (y 1).val = (y 1).val; omega
  | ⟨2, _⟩ => show win0_5.index t (2 : Fin 3) * 128 + 1 * (y 2).val = (y 2).val; omega

end Cert.KernelIdeal.LstmValue

end
-- ==== Proof.KTail.lean ====
/-
  The lines of the kernel's program after the pallas_call region, read at an index.

  After the region the program recomputes the last step's cell state on the host.  The last row block x[4095] of the
  input, [32, 128], times the transposed input weight [128, 512], plus the step-free array s [32, 512], gives the 512
  pre-activations of every batch row,

      gate[b, g] = Σₖ x[4095, b, k] · w[k, g] + s[b, g].

  The gates are the lane blocks at columns 0 (input), 128 (forget) and 256 (candidate); the logistic function is spelt
  out as 1 / (1 + e^(-z)), the 1 being the float word of 1.0 repeated over the array; and the result is

      σ(forget)·c0 + σ(input)·tanh(candidate),

  which is the specification's cell state on that row of pre-activations.  The last step's hidden state is the last row
  block of the region's output.  Every array these lines read from outside themselves is an array of the pipeline, so
  it is read as the region leaves it.
-/
import proofs.«159641_j54614804136123_2_alg».proof.Proof.KHost

set_option maxRecDepth 16384

noncomputable section

namespace Cert.KernelIdeal.LstmValue

open Cert.KernelIdeal Cert.KernelIdeal.Gen Idealize.ShloMosaic Idealize.ShloMosaic.TcCoe Idealize.ShloMosaic.Tactic
open Idealize.SL Idealize.SL.Sem Idealize.ShloMosaic.ValueIdx Idealize.ShloMosaic.StableHlo
open Idealize.ShloMosaic.Pipeline (Dat Cfg Window)

variable (m : (ℓ : Loc nD τ sig) → Buf (Elt Ideal) ℓ)

/-! ## The last row block of a sequence -/

/-- The last row block of a [4096, 32, 128] array, as a [32, 128] array. -/
def lastBlock {α : Type} (x : S4096x32x128.Idx → α) : S32x128.Idx → α :=
  shapeCast S32x128 (extractStridedSlice S1x32x128 ![4095, 0, 0] x slices_S4096x32x128_S1x32x128_4095_0_0) shapeCasts_S1x32x128_S32x128

/-- Its entry (b, k) is the array's entry (4095, b, k). -/
theorem lastBlock_apply {α : Type} (x : S4096x32x128.Idx → α) (b : Fin 32) (k : Fin 128) :
    lastBlock x (ix2 b k) = x (ix3 (4095 : Fin 4096) b k) := by
  unfold lastBlock
  refine (shapeCast_apply _ shapeCasts_S1x32x128_S32x128 (ix2 b k) (ix3 (0 : Fin 1) b k) ?_).trans ?_
  · rewrite [Shape.rowMajor_val_three, Shape.rowMajor_val_two]
    show (0 * 32 + b.val) * 128 + k.val = b.val * 128 + k.val
    omega
  · exact extractStridedSlice_apply ![4095, 0, 0] x slices_S4096x32x128_S1x32x128_4095_0_0 (ix3 (0 : Fin 1) b k)
      (ix3 (4095 : Fin 4096) b k) (fun a => match a with
        | ⟨0, _⟩ => by show 4095 = 4095 + 0; rfl
        | ⟨1, _⟩ => by show b.val = 0 + b.val; omega
        | ⟨2, _⟩ => by show k.val = 0 + k.val; omega)

/-- The last step's hidden state as the lines after the region form it: the last row block of the region's output. -/
def tailH (o : FVec Ideal S4096x32x128 .f32) : FVec Ideal S32x128 .f32 := lastBlock o

theorem tailH_apply (o : FVec Ideal S4096x32x128 .f32) (b : Fin 32) (d : Fin 128) :
    tailH o (ix2 b d) = o (ix3 (4095 : Fin 4096) b d) := lastBlock_apply o b d

/-! ## The last step's pre-activations -/

/-- The pre-activations of the last step: the last row block of the input, in the narrower float format, times the
    weight block, plus the step-free array. -/
def tailGate (x : FVec Ideal S4096x32x128 .f32) (w : FVec Ideal S128x512 .bf16) (hp : FVec Ideal S32x512 .f32) :
    FVec Ideal S32x512 .f32 :=
  addf (Host.dotGeneral (F := Ideal) dot_S32x128_S128x512_S32x512_1_0_0_1_n_n none
      (truncf (F := Ideal) .bf16 (lastBlock x : FVec Ideal S32x128 .f32) bitsLt_bf16_f32) w) hp

theorem tailGate_apply (x : FVec Ideal S4096x32x128 .f32) (w : FVec Ideal S128x512 .bf16) (hp : FVec Ideal S32x512 .f32)
    (b : Fin 32) (g : Fin 512) :
    tailGate x w hp (ix2 b g) = (∑ k : Fin 128, x (ix3 (4095 : Fin 4096) b k) * w (ix2 k g)) + hp (ix2 b g) := by
  unfold tailGate
  refine (ValueIdx.addf_apply _ _ (ix2 b g)).trans ?_
  refine congrArg (· + hp (ix2 b g)) ?_
  refine (hostDot_apply _ w b g).trans ?_
  refine Finset.sum_congr rfl fun k _ => ?_
  exact congrArg (· * w (ix2 k g)) (lastBlock_apply x b k)

/-! ## The three gates' lane blocks -/

/-- The lane block at column 0 of a [32, 512] array reads (b, d) at the input gate's column. -/
theorem slice0_apply {α : Type} (v : S32x512.Idx → α) (b : Fin 32) (d : Fin 128) :
    extractStridedSlice S32x128 ![0, 0] v slices_S32x512_S32x128_0_0 (ix2 b d) = v (ix2 b (Cert.Lstm.col 0 d)) :=
  extractStridedSlice_apply ![0, 0] v slices_S32x512_S32x128_0_0 (ix2 b d) (ix2 b (Cert.Lstm.col 0 d)) (fun a => match a with
    | ⟨0, _⟩ => by show b.val = 0 + b.val; omega
    | ⟨1, _⟩ => by show 128 * 0 + d.val = 0 + d.val; omega)

/-- The lane block at column 128 reads (b, d) at the forget gate's column. -/
theorem slice128_apply {α : Type} (v : S32x512.Idx → α) (b : Fin 32) (d : Fin 128) :
    extractStridedSlice S32x128 ![0, 128] v slices_S32x512_S32x128_0_128 (ix2 b d) = v (ix2 b (Cert.Lstm.col 1 d)) :=
  extractStridedSlice_apply ![0, 128] v slices_S32x512_S32x128_0_128 (ix2 b d) (ix2 b (Cert.Lstm.col 1 d)) (fun a => match a with
    | ⟨0, _⟩ => by show b.val = 0 + b.val; omega
    | ⟨1, _⟩ => by show 128 * 1 + d.val = 128 + d.val; omega)

/-- The lane block at column 256 reads (b, d) at the candidate's column. -/
theorem slice256_apply {α : Type} (v : S32x512.Idx → α) (b : Fin 32) (d : Fin 128) :
    extractStridedSlice S32x128 ![0, 256] v slices_S32x512_S32x128_0_256 (ix2 b d) = v (ix2 b (Cert.Lstm.col 2 d)) :=
  extractStridedSlice_apply ![0, 256] v slices_S32x512_S32x128_0_256 (ix2 b d) (ix2 b (Cert.Lstm.col 2 d)) (fun a => match a with
    | ⟨0, _⟩ => by show b.val = 0 + b.val; omega
    | ⟨1, _⟩ => by show 128 * 2 + d.val = 256 + d.val; omega)

/-! ## The logistic function spelt out -/

/-- The float word of 1.0 repeated over a [32, 128] array. -/
def ones : FVec Ideal S32x128 .f32 :=
  broadcastInDim S32x128 ![] bcast_S_S32x128 (constant (F := Ideal) S_ .f32 0x3F800000#32)

theorem ones_apply (i : S32x128.Idx) : ones i = Ideal.ofBits .f32 0x3F800000#32 :=
  broadcastInDim_apply _ bcast_S_S32x128 (constant (F := Ideal) S_ .f32 0x3F800000#32) i (fun a => a.elim0) (fun a => a.elim0)

/-- 1 ÷ (1 + e^(-z)) on a [32, 128] array, as the host's negate, exponential, add and divide. -/
def speltLogistic (z : FVec Ideal S32x128 .f32) : FVec Ideal S32x128 .f32 :=
  Host.divf (F := Ideal) ones (addf ones (Host.exp (F := Ideal) (Host.negf (F := Ideal) z)))

/-- It is the logistic function at every entry. -/
theorem speltLogistic_apply (z : FVec Ideal S32x128 .f32) (i : S32x128.Idx) : speltLogistic z i = Ideal.logistic (z i) := by
  unfold speltLogistic
  show Ideal.div (ones i) (ones i + Ideal.exp (-(z i))) = _
  rw [ones_apply]
  exact Cert.Lstm.logistic_spelt (z i)

/-! ## The last step's cell state -/

/-- The last step's cell state as the lines after the region form it, from the input sequence, the weight block, the
    step-free array and the old cell state. -/
def tailC (x : FVec Ideal S4096x32x128 .f32) (w : FVec Ideal S128x512 .bf16) (hp : FVec Ideal S32x512 .f32)
    (c0 : FVec Ideal S32x128 .f32) : FVec Ideal S32x128 .f32 :=
  addf
    (mulf (speltLogistic (extractStridedSlice S32x128 ![0, 128] (tailGate x w hp) slices_S32x512_S32x128_0_128)) c0)
    (mulf (speltLogistic (extractStridedSlice S32x128 ![0, 0] (tailGate x w hp) slices_S32x512_S32x128_0_0))
      (Host.tanh (F := Ideal) (extractStridedSlice S32x128 ![0, 256] (tailGate x w hp) slices_S32x512_S32x128_0_256)))

/-- Its entry (b, d) is the specification's cell state on row b of the last step's pre-activations. -/
theorem tailC_apply (x : FVec Ideal S4096x32x128 .f32) (w : FVec Ideal S128x512 .bf16) (hp : FVec Ideal S32x512 .f32)
    (c0 : FVec Ideal S32x128 .f32) (b : Fin 32) (d : Fin 128) :
    tailC x w hp c0 (ix2 b d) = Cert.Lstm.cellC (fun g : Fin 512 => (∑ k : Fin 128, x (ix3 (4095 : Fin 4096) b k) * w (ix2 k g)) + hp (ix2 b g))
      (c0 (ix2 b d)) d := by
  unfold tailC Cert.Lstm.cellC
  refine (ValueIdx.addf_apply _ _ (ix2 b d)).trans ?_
  refine congrArg₂ (· + ·) ?_ ?_
  · refine (ValueIdx.mulf_apply _ _ (ix2 b d)).trans ?_
    refine congrArg (· * c0 (ix2 b d)) ?_
    refine (speltLogistic_apply _ _).trans ?_
    refine congrArg Ideal.logistic ?_
    exact (slice128_apply _ b d).trans (tailGate_apply x w hp b (Cert.Lstm.col 1 d))
  · refine (ValueIdx.mulf_apply _ _ (ix2 b d)).trans ?_
    refine congrArg₂ (· * ·) ?_ ?_
    · refine (speltLogistic_apply _ _).trans ?_
      refine congrArg Ideal.logistic ?_
      exact (slice0_apply _ b d).trans (tailGate_apply x w hp b (Cert.Lstm.col 0 d))
    · show Ideal.tanh (extractStridedSlice S32x128 ![0, 256] (tailGate x w hp) slices_S32x512_S32x128_0_256 (ix2 b d)) = _
      refine congrArg Ideal.tanh ?_
      exact (slice256_apply _ b d).trans (tailGate_apply x w hp b (Cert.Lstm.col 2 d))

theorem tailC_congr {x x' : FVec Ideal S4096x32x128 .f32} {w w' : FVec Ideal S128x512 .bf16} {hp hp' : FVec Ideal S32x512 .f32}
    {c0 c0' : FVec Ideal S32x128 .f32} (hx : x = x') (hw : w = w') (hh : hp = hp') (hc : c0 = c0') :
    tailC x w hp c0 = tailC x' w' hp' c0' := by subst hx hw hh hc; rfl

/-! ## The lines after the region, over any contents of the buffers they read -/

/-- The 28 lines that end in the last step's cell state compute it from the four buffers they read. -/
theorem after_v32 (W : Valuation τ sig (Elt Ideal)) :
    StableHlo.after hostOps1 W (Proc.devRef .tc main_v32)
      = tailC (W (Proc.devRef .tc main_arg0)) (W (Proc.devRef .tc main_v7)) (W (Proc.devRef .tc main_v5)) (W (Proc.devRef .tc main_arg2)) := by
  after_results_simp
  rfl

/-- The last two lines take the last row block of the region's output. -/
theorem after_v34 (W : Valuation τ sig (Elt Ideal)) :
    StableHlo.after hostOps1 W (Proc.devRef .tc main_v34) = tailH (W (Proc.devRef .tc main_v8)) := by
  after_results
  rfl

/-! ## The same lines after the region's run -/

/-- The last step's cell state at the end of the program, from the pipeline's arrays as the region leaves them. -/
theorem tail_v32 (c : Dev nD) : Pipeline.afterTail₀ cfgs (dats m) 0 (V0 m) [hostOps1] c main_v32
    = tailC ((dats m 0 c).arrAt 0 cfg0.N) ((dats m 0 c).arrAt 1 cfg0.N) ((dats m 0 c).arrAt 2 cfg0.N) ((dats m 0 c).arrAt 3 cfg0.N) := by
  unfold Pipeline.afterTail₀
  refine (after_v32 (Pipeline.withArrays spec0 c (V0 m c) fun w => (dats m 0 c).arrAt w cfg0.N)).trans ?_
  exact tailC_congr (Pipeline.withArrays_arr spec0 launch0.win.arr_inj c _ _ 0) (Pipeline.withArrays_arr spec0 launch0.win.arr_inj c _ _ 1)
    (Pipeline.withArrays_arr spec0 launch0.win.arr_inj c _ _ 2) (Pipeline.withArrays_arr spec0 launch0.win.arr_inj c _ _ 3)

/-- The last step's hidden state at the end of the program, from the region's output as the region leaves it. -/
theorem tail_v34 (c : Dev nD) : Pipeline.afterTail₀ cfgs (dats m) 0 (V0 m) [hostOps1] c main_v34
    = tailH ((dats m 0 c).arrAt 5 cfg0.N) := by
  unfold Pipeline.afterTail₀
  refine (after_v34 (Pipeline.withArrays spec0 c (V0 m c) fun w => (dats m 0 c).arrAt w cfg0.N)).trans ?_
  exact congrArg tailH (Pipeline.withArrays_arr spec0 launch0.win.arr_inj c _ _ 5)

end Cert.KernelIdeal.LstmValue

end
-- ==== Proof.KRun.lean ====
/-
  The kernel's whole program, run: its three results are the specification's three functions of the arguments.

  The output array after the 16 grid points is `outputs` (every point's block is that function's block, and the
  blocks tile the array).  After the region the host slices the last step of that array — the specification's
  `hLast` — and recomputes the last step's cell state from the last step of the input, the transposed weights and
  the step-free term: the specification's `cLast`.  The arguments end as they were launched.
-/
import proofs.«159641_j54614804136123_2_alg».proof.Proof.KPoint
import proofs.«159641_j54614804136123_2_alg».proof.Proof.KCover
import proofs.«159641_j54614804136123_2_alg».proof.Proof.KTail
import Idealize.ShloMosaic.Lib.ValueIdx
import Idealize.ShloMosaic.Lib.Pipeline.Value

set_option maxRecDepth 16384

noncomputable section

namespace Cert.KernelIdeal.LstmValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The specification's second and third results over the program's argument arrays as launched. -/
abbrev specH (c : Dev nD) : S32x128.Idx → EReal :=
  Cert.Lstm.hLast (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
abbrev specC (c : Dev nD) : S32x128.Idx → EReal :=
  Cert.Lstm.cLast (m ((c : Thread nD τ).loc main_arg0)) (m ((c : Thread nD τ).loc main_arg1)) (m ((c : Thread nD τ).loc main_arg2))
    (m ((c : Thread nD τ).loc main_arg4)) (m ((c : Thread nD τ).loc main_arg5))
    (m ((c : Thread nD τ).loc main_arg6)) (m ((c : Thread nD τ).loc main_arg7))

/-- THE OUTPUT ARRAY after the run is the specification's `outputs`. -/
theorem final (c : Dev nD) : (dats m 0 c).arrAt 5 cfg0.N = specOut m c :=
  final_of_block m c (specOut m c) (point_eq m c)

/-- The staged inputs' arrays after the run are what the region found. -/
theorem arr0 (c : Dev nD) : (dats m 0 c).arrAt 0 cfg0.N = m ((c : Thread nD τ).loc main_arg0) :=
  ((dats m 0 c).arrAt_in 0 rfl _).trans ((A_eq m c 0).trans (V_main_arg0 m c))
theorem arr1 (c : Dev nD) : (dats m 0 c).arrAt 1 cfg0.N = V m c main_v7 :=
  ((dats m 0 c).arrAt_in 1 rfl _).trans (A_eq m c 1)
theorem arr2 (c : Dev nD) : (dats m 0 c).arrAt 2 cfg0.N = V m c main_v5 :=
  ((dats m 0 c).arrAt_in 2 rfl _).trans (A_eq m c 2)
theorem arr3 (c : Dev nD) : (dats m 0 c).arrAt 3 cfg0.N = m ((c : Thread nD τ).loc main_arg2) :=
  ((dats m 0 c).arrAt_in 3 rfl _).trans ((A_eq m c 3).trans (V_main_arg2 m c))
theorem arr4 (c : Dev nD) : (dats m 0 c).arrAt 4 cfg0.N = m ((c : Thread nD τ).loc main_arg3) :=
  ((dats m 0 c).arrAt_in 4 rfl _).trans ((A_eq m c 4).trans (V_main_arg3 m c))

/-- The cell state on a row of pre-activations assembled from arbitrary arrays is the specification's last cell state,
    once those arrays are known to hold the entries it reads: the last step of the input, the transposed input
    weights, the step-free term and the old cell state. -/
theorem cellC_spec (x : FVec Ideal S4096x32x128 .f32) (w : FVec Ideal S128x512 .bf16) (hp : FVec Ideal S32x512 .f32)
    (c0' : FVec Ideal S32x128 .f32)
    (xs : Cert.Lstm.SX.Idx → EReal) (h0 c0 : Cert.Lstm.SB.Idx → EReal) (wih whh : Cert.Lstm.SW.Idx → EReal)
    (bih bhh : Cert.Lstm.SV.Idx → EReal) (b : Fin 32) (d : Fin 128)
    (hx : ∀ k : Fin 128, x (ix3 (4095 : Fin 4096) b k) = xs (ix3 (4095 : Fin 4096) b k))
    (hw : ∀ (k : Fin 128) (g : Fin 512), w (ix2 k g) = wih (ix2 g k))
    (hh : ∀ g : Fin 512, hp (ix2 b g) = Cert.Lstm.stepFree h0 whh bih bhh b g)
    (hc : c0' (ix2 b d) = c0 (ix2 b d)) :
    Cert.Lstm.cellC (fun g : Fin 512 => (∑ k : Fin 128, x (ix3 (4095 : Fin 4096) b k) * w (ix2 k g)) + hp (ix2 b g))
        (c0' (ix2 b d)) d
      = Cert.Lstm.cLast xs h0 c0 wih whh bih bhh (ix2 b d) := by
  show _ = Cert.Lstm.cellC (Cert.Lstm.gate xs h0 wih whh bih bhh 4095 b) (c0 (ix2 b d)) d
  rw [hc]
  refine congrArg (fun gt => Cert.Lstm.cellC gt _ d) (funext fun g => ?_)
  rw [hh g]
  unfold Cert.Lstm.gate Cert.Lstm.inProj
  refine congrArg (· + _) (Finset.sum_congr rfl fun k _ => ?_)
  rw [hx k, hw k g]

/-- The last step's hidden state, sliced from the output array after the region, is the specification's `hLast`. -/
theorem tail34 (c : Dev nD) : Pipeline.afterTail₀ cfgs (dats m) 0 (V0 m) [hostOps1] c main_v34 = specH m c := by
  rw [tail_v34, final]
  funext j
  obtain ⟨b, d, rfl⟩ : ∃ (b : Fin 32) (d : Fin 128), j = ix2 b d := ⟨j 0, j 1, eq_ix2 j⟩
  rw [tailH_apply]
  rfl

/-- The last step's cell state, recomputed by the host after the region, is the specification's `cLast`. -/
theorem tail32 (c : Dev nD) : Pipeline.afterTail₀ cfgs (dats m) 0 (V0 m) [hostOps1] c main_v32 = specC m c := by
  rw [tail_v32]
  funext j
  obtain ⟨b, d, rfl⟩ : ∃ (b : Fin 32) (d : Fin 128), j = ix2 b d := ⟨j 0, j 1, eq_ix2 j⟩
  rw [tailC_apply]
  exact cellC_spec ((dats m 0 c).arrAt 0 cfg0.N) ((dats m 0 c).arrAt 1 cfg0.N) ((dats m 0 c).arrAt 2 cfg0.N)
    ((dats m 0 c).arrAt 3 cfg0.N)
    (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) b d
    (fun k => by rw [arr0]) (fun k g => by rw [arr1, V_wih]) (fun g => by rw [arr2, V_stepFree]) (by rw [arr3])

/-- THE RUN of the kernel's program at the ideal instance: every weakly fair execution ends with the three results
    at the specification's functions of the argument arrays, and the arguments as launched. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = specOut m c
      ∧ r.2.mem ((c.tc : Thread nD τ).loc main_v34) = specH m c
      ∧ r.2.mem ((c.tc : Thread nD τ).loc main_v32) = specC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 5).trans (final m c),
      ((h c).2 main_v34 (Pipeline.mem_restRefs_of main_v34 (by decide) (by decide))).trans (tail34 m c),
      ((h c).2 main_v32 (Pipeline.mem_restRefs_of main_v32 (by decide) (by decide))).trans (tail32 m c),
      ((h c).1 0).trans (arr0 m c),
      ((h c).2 main_arg1 (Pipeline.mem_restRefs_of main_arg1 (by decide) (by decide))).trans (W_main_arg1 m (dats m) c),
      ((h c).1 3).trans (arr3 m c),
      ((h c).1 4).trans (arr4 m c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.LstmValue

end
-- ==== Proof.RefCell.lean ====
/-
  The reference's three results are the specification's three functions.

  The reference forms the pre-activation of every step, row and gate column as `(a + h) + bias` with `a` the
  input's projection, `h` the initial hidden state's projection and `bias` the sum of the two bias vectors; it then
  cuts the 512 columns into the four gates (columns `d`, `128 + d`, `256 + d`, `384 + d`), spells the logistic
  function out as `1 / (1 + e^(-z))`, and combines the gates into the cell state and the hidden state.  The last
  step's states are row block 4095 of the two sequences.
-/
import proofs.«159641_j54614804136123_2_alg».proof.Proof.Gen.ReferenceIdeal.Read
import proofs.«159641_j54614804136123_2_alg».proof.Proof.Cell
import Idealize.ShloMosaic.Lib.ValueIdx
import Idealize.ShloMosaic.PureOps.Ideal.Laws

noncomputable section

namespace Cert.ReferenceIdeal.LstmRef

open Cert.ReferenceIdeal Cert.ReferenceIdeal.Read Idealize.ShloMosaic Idealize.ShloMosaic.ValueIdx

/-- The pre-activation at coordinates: the reference's grouping `(a + h) + bias` is the specification's gate. -/
theorem pre_eq (x0 : (⟨S4096x32x128, .f32⟩ : BufTy).Contents (Elt Ideal)) (x1 : (⟨S32x128, .f32⟩ : BufTy).Contents (Elt Ideal))
    (x4 x5 : (⟨S512x128, .f32⟩ : BufTy).Contents (Elt Ideal)) (x6 x7 : (⟨S512, .f32⟩ : BufTy).Contents (Elt Ideal))
    (t : Fin 4096) (b : Fin 32) (g : Fin 512) :
    val_main_v8 (F := Ideal) x0 x1 x4 x5 x6 x7 (ix3 t b g) = Cert.Lstm.gate x0 x1 x4 x5 x6 x7 t b g := by
  rw [val_main_v8_apply, val_main_v4_apply, val_main_v0_apply, val_main_v3_apply, val_main_v2_apply, val_main_v1_apply,
    val_main_v7_apply, val_main_v6_apply, val_main_v5_apply, ← Cert.Lstm.gate_assoc]
  have e0l : ∀ k : Fin 128, lidx_main_v0 (ix3 t b g) k = ix3 t b k := fun k => funext fun a => by
    match a with
    | ⟨0, _⟩ => rfl
    | ⟨1, _⟩ => rfl
    | ⟨2, _⟩ => rfl
  have e0r : ∀ k : Fin 128, ridx_main_v0 (ix3 t b g) k = ix2 g k := fun k => funext fun a => by
    match a with
    | ⟨0, _⟩ => rfl
    | ⟨1, _⟩ => rfl
  have e1l : ∀ k : Fin 128, lidx_main_v1 (idx_main_v2 (idx_main_v3 (ix3 t b g))) k = ix2 b k := fun k => funext fun a => by
    match a with
    | ⟨0, _⟩ => rfl
    | ⟨1, _⟩ => rfl
  have e1r : ∀ k : Fin 128, ridx_main_v1 (idx_main_v2 (idx_main_v3 (ix3 t b g))) k = ix2 g k := fun k => funext fun a => by
    match a with
    | ⟨0, _⟩ => rfl
    | ⟨1, _⟩ => rfl
  have e6 : idx_main_v6 (idx_main_v7 (ix3 t b g)) = ix1 g := funext fun a => by
    match a with
    | ⟨0, _⟩ => rfl
  simp only [e0l, e0r, e1l, e1r, e6, Ideal.addf_def]
  rfl

/-- The four slices of the 512 gate columns: lane `d` of gate `q` is column `128·q + d`. -/
theorem slice_in (t : Fin 4096) (b : Fin 32) (d : Fin 128) :
    idx_main_v9 (ix3 t b d) = ix3 t b (Cert.Lstm.col 0 d) := funext fun a => by
  match a with
  | ⟨0, _⟩ => rfl
  | ⟨1, _⟩ => rfl
  | ⟨2, _⟩ => exact Fin.ext (show d.val = 128 * 0 + d.val by omega)

theorem slice_forget (t : Fin 4096) (b : Fin 32) (d : Fin 128) :
    idx_main_v16 (ix3 t b d) = ix3 t b (Cert.Lstm.col 1 d) := funext fun a => by
  match a with
  | ⟨0, _⟩ => rfl
  | ⟨1, _⟩ => rfl
  | ⟨2, _⟩ => exact Fin.ext (show 128 + d.val = 128 * 1 + d.val by omega)

theorem slice_cand (t : Fin 4096) (b : Fin 32) (d : Fin 128) :
    idx_main_v23 (ix3 t b d) = ix3 t b (Cert.Lstm.col 2 d) := funext fun a => by
  match a with
  | ⟨0, _⟩ => rfl
  | ⟨1, _⟩ => rfl
  | ⟨2, _⟩ => exact Fin.ext (show 256 + d.val = 128 * 2 + d.val by omega)

theorem slice_out (t : Fin 4096) (b : Fin 32) (d : Fin 128) :
    idx_main_v25 (ix3 t b d) = ix3 t b (Cert.Lstm.col 3 d) := funext fun a => by
  match a with
  | ⟨0, _⟩ => rfl
  | ⟨1, _⟩ => rfl
  | ⟨2, _⟩ => exact Fin.ext (show 384 + d.val = 128 * 3 + d.val by omega)

/-- The input gate: the spelt-out logistic function of column `d`. -/
theorem gate_in (x0 : (⟨S4096x32x128, .f32⟩ : BufTy).Contents (Elt Ideal)) (x1 : (⟨S32x128, .f32⟩ : BufTy).Contents (Elt Ideal))
    (x4 x5 : (⟨S512x128, .f32⟩ : BufTy).Contents (Elt Ideal)) (x6 x7 : (⟨S512, .f32⟩ : BufTy).Contents (Elt Ideal))
    (t : Fin 4096) (b : Fin 32) (d : Fin 128) :
    val_main_v15 (F := Ideal) x0 x1 x4 x5 x6 x7 (ix3 t b d)
      = Ideal.logistic (Cert.Lstm.gate x0 x1 x4 x5 x6 x7 t b (Cert.Lstm.col 0 d)) := by
  rw [val_main_v15_apply, val_main_v14_apply, val_main_cst_0_apply, val_main_v13_apply, val_main_v12_apply,
    val_main_cst_apply, val_main_v11_apply, val_main_v10_apply, val_main_v9_apply, slice_in, pre_eq]
  simp only [Ideal.hostDivf_def, Ideal.ofBits_def, Ideal.addf_def, Ideal.hostUnary_exp_def, Ideal.hostNegf_def, Ideal.negf_def]
  exact Cert.Lstm.logistic_spelt _

/-- The forget gate: the spelt-out logistic function of column `128 + d`. -/
theorem gate_forget (x0 : (⟨S4096x32x128, .f32⟩ : BufTy).Contents (Elt Ideal)) (x1 : (⟨S32x128, .f32⟩ : BufTy).Contents (Elt Ideal))
    (x4 x5 : (⟨S512x128, .f32⟩ : BufTy).Contents (Elt Ideal)) (x6 x7 : (⟨S512, .f32⟩ : BufTy).Contents (Elt Ideal))
    (t : Fin 4096) (b : Fin 32) (d : Fin 128) :
    val_main_v22 (F := Ideal) x0 x1 x4 x5 x6 x7 (ix3 t b d)
      = Ideal.logistic (Cert.Lstm.gate x0 x1 x4 x5 x6 x7 t b (Cert.Lstm.col 1 d)) := by
  rw [val_main_v22_apply, val_main_v21_apply, val_main_cst_2_apply, val_main_v20_apply, val_main_v19_apply,
    val_main_cst_1_apply, val_main_v18_apply, val_main_v17_apply, val_main_v16_apply, slice_forget, pre_eq]
  simp only [Ideal.hostDivf_def, Ideal.ofBits_def, Ideal.addf_def, Ideal.hostUnary_exp_def, Ideal.hostNegf_def, Ideal.negf_def]
  exact Cert.Lstm.logistic_spelt _

/-- The candidate: the hyperbolic tangent of column `256 + d`. -/
theorem gate_cand (x0 : (⟨S4096x32x128, .f32⟩ : BufTy).Contents (Elt Ideal)) (x1 : (⟨S32x128, .f32⟩ : BufTy).Contents (Elt Ideal))
    (x4 x5 : (⟨S512x128, .f32⟩ : BufTy).Contents (Elt Ideal)) (x6 x7 : (⟨S512, .f32⟩ : BufTy).Contents (Elt Ideal))
    (t : Fin 4096) (b : Fin 32) (d : Fin 128) :
    val_main_v24 (F := Ideal) x0 x1 x4 x5 x6 x7 (ix3 t b d)
      = Ideal.tanh (Cert.Lstm.gate x0 x1 x4 x5 x6 x7 t b (Cert.Lstm.col 2 d)) := by
  rw [val_main_v24_apply, val_main_v23_apply, slice_cand, pre_eq]
  rfl

/-- The output gate: the spelt-out logistic function of column `384 + d`. -/
theorem gate_out (x0 : (⟨S4096x32x128, .f32⟩ : BufTy).Contents (Elt Ideal)) (x1 : (⟨S32x128, .f32⟩ : BufTy).Contents (Elt Ideal))
    (x4 x5 : (⟨S512x128, .f32⟩ : BufTy).Contents (Elt Ideal)) (x6 x7 : (⟨S512, .f32⟩ : BufTy).Contents (Elt Ideal))
    (t : Fin 4096) (b : Fin 32) (d : Fin 128) :
    val_main_v31 (F := Ideal) x0 x1 x4 x5 x6 x7 (ix3 t b d)
      = Ideal.logistic (Cert.Lstm.gate x0 x1 x4 x5 x6 x7 t b (Cert.Lstm.col 3 d)) := by
  rw [val_main_v31_apply, val_main_v30_apply, val_main_cst_4_apply, val_main_v29_apply, val_main_v28_apply,
    val_main_cst_3_apply, val_main_v27_apply, val_main_v26_apply, val_main_v25_apply, slice_out, pre_eq]
  simp only [Ideal.hostDivf_def, Ideal.ofBits_def, Ideal.addf_def, Ideal.hostUnary_exp_def, Ideal.hostNegf_def, Ideal.negf_def]
  exact Cert.Lstm.logistic_spelt _

/-- A state array repeated along the steps reads, at `(t, b, d)`, its entry `(b, d)`. -/
theorem rep_idx (t : Fin 4096) (b : Fin 32) (d : Fin 128) :
    idx_main_v32 (idx_main_v33 (ix3 t b d)) = ix2 b d := funext fun a => by
  match a with
  | ⟨0, _⟩ => rfl
  | ⟨1, _⟩ => rfl

theorem rep_idx' (t : Fin 4096) (b : Fin 32) (d : Fin 128) :
    idx_main_v39 (idx_main_v40 (ix3 t b d)) = ix2 b d := funext fun a => by
  match a with
  | ⟨0, _⟩ => rfl
  | ⟨1, _⟩ => rfl

/-- The sequence of cell states at coordinates. -/
theorem cell_eq (x0 : (⟨S4096x32x128, .f32⟩ : BufTy).Contents (Elt Ideal)) (x1 x2 : (⟨S32x128, .f32⟩ : BufTy).Contents (Elt Ideal))
    (x4 x5 : (⟨S512x128, .f32⟩ : BufTy).Contents (Elt Ideal)) (x6 x7 : (⟨S512, .f32⟩ : BufTy).Contents (Elt Ideal))
    (t : Fin 4096) (b : Fin 32) (d : Fin 128) :
    val_main_v36 (F := Ideal) x0 x1 x2 x4 x5 x6 x7 (ix3 t b d)
      = Cert.Lstm.cellC (Cert.Lstm.gate x0 x1 x4 x5 x6 x7 t b) (x2 (ix2 b d)) d := by
  rw [val_main_v36_apply, val_main_v34_apply, val_main_v35_apply, val_main_v33_apply, val_main_v32_apply, rep_idx,
    gate_forget, gate_in, gate_cand]
  rfl

/-- The sequence of hidden states at coordinates. -/
theorem hid_eq (x0 : (⟨S4096x32x128, .f32⟩ : BufTy).Contents (Elt Ideal)) (x1 x2 x3 : (⟨S32x128, .f32⟩ : BufTy).Contents (Elt Ideal))
    (x4 x5 : (⟨S512x128, .f32⟩ : BufTy).Contents (Elt Ideal)) (x6 x7 : (⟨S512, .f32⟩ : BufTy).Contents (Elt Ideal))
    (t : Fin 4096) (b : Fin 32) (d : Fin 128) :
    val_main_v41 (F := Ideal) x0 x1 x2 x3 x4 x5 x6 x7 (ix3 t b d)
      = Cert.Lstm.outputs x0 x1 x2 x3 x4 x5 x6 x7 (ix3 t b d) := by
  rw [val_main_v41_apply, val_main_v38_apply, val_main_v37_apply, val_main_v40_apply, val_main_v39_apply, rep_idx',
    gate_out, cell_eq]
  rfl

/-- Result 0. -/
theorem out0_eq (x0 : (⟨S4096x32x128, .f32⟩ : BufTy).Contents (Elt Ideal)) (x1 x2 x3 : (⟨S32x128, .f32⟩ : BufTy).Contents (Elt Ideal))
    (x4 x5 : (⟨S512x128, .f32⟩ : BufTy).Contents (Elt Ideal)) (x6 x7 : (⟨S512, .f32⟩ : BufTy).Contents (Elt Ideal)) :
    val_main_v41 (F := Ideal) x0 x1 x2 x3 x4 x5 x6 x7 = Cert.Lstm.outputs x0 x1 x2 x3 x4 x5 x6 x7 := by
  funext i
  rw [eq_ix3 i]
  exact hid_eq x0 x1 x2 x3 x4 x5 x6 x7 (i 0) (i 1) (i 2)

/-- Row block 4095 of a sequence, with its unit axis dropped, reads at `(b, d)` the sequence at `(4095, b, d)`. -/
theorem last_idx (b : Fin 32) (d : Fin 128) :
    idx_main_v42 (idx_main_v43 (ix2 b d)) = ix3 (4095 : Fin 4096) b d := funext fun a => by
  match a with
  | ⟨0, _⟩ => rfl
  | ⟨1, _⟩ => exact Fin.ext (show (b.val * 128 + d.val) / 128 % 32 = b.val by have := b.isLt; have := d.isLt; omega)
  | ⟨2, _⟩ => exact Fin.ext (show (b.val * 128 + d.val) % 128 = d.val by have := d.isLt; omega)

theorem last_idx' (b : Fin 32) (d : Fin 128) :
    idx_main_v44 (idx_main_v45 (ix2 b d)) = ix3 (4095 : Fin 4096) b d := last_idx b d

theorem hlast_ix (x0 : (⟨S4096x32x128, .f32⟩ : BufTy).Contents (Elt Ideal)) (x1 x2 x3 : (⟨S32x128, .f32⟩ : BufTy).Contents (Elt Ideal))
    (x4 x5 : (⟨S512x128, .f32⟩ : BufTy).Contents (Elt Ideal)) (x6 x7 : (⟨S512, .f32⟩ : BufTy).Contents (Elt Ideal))
    (b : Fin 32) (d : Fin 128) :
    val_main_v43 (F := Ideal) x0 x1 x2 x3 x4 x5 x6 x7 (ix2 b d) = Cert.Lstm.hLast x0 x1 x2 x3 x4 x5 x6 x7 (ix2 b d) := by
  rw [val_main_v43_apply, val_main_v42_apply, last_idx, Cert.Lstm.hLast_eq_outputs]
  exact hid_eq x0 x1 x2 x3 x4 x5 x6 x7 4095 b d

/-- Result 1. -/
theorem out1_eq (x0 : (⟨S4096x32x128, .f32⟩ : BufTy).Contents (Elt Ideal)) (x1 x2 x3 : (⟨S32x128, .f32⟩ : BufTy).Contents (Elt Ideal))
    (x4 x5 : (⟨S512x128, .f32⟩ : BufTy).Contents (Elt Ideal)) (x6 x7 : (⟨S512, .f32⟩ : BufTy).Contents (Elt Ideal)) :
    val_main_v43 (F := Ideal) x0 x1 x2 x3 x4 x5 x6 x7 = Cert.Lstm.hLast x0 x1 x2 x3 x4 x5 x6 x7 := by
  funext j
  rw [eq_ix2 j]
  exact hlast_ix x0 x1 x2 x3 x4 x5 x6 x7 (j 0) (j 1)

theorem clast_ix (x0 : (⟨S4096x32x128, .f32⟩ : BufTy).Contents (Elt Ideal)) (x1 x2 : (⟨S32x128, .f32⟩ : BufTy).Contents (Elt Ideal))
    (x4 x5 : (⟨S512x128, .f32⟩ : BufTy).Contents (Elt Ideal)) (x6 x7 : (⟨S512, .f32⟩ : BufTy).Contents (Elt Ideal))
    (b : Fin 32) (d : Fin 128) :
    val_main_v45 (F := Ideal) x0 x1 x2 x4 x5 x6 x7 (ix2 b d) = Cert.Lstm.cLast x0 x1 x2 x4 x5 x6 x7 (ix2 b d) := by
  rw [val_main_v45_apply, val_main_v44_apply, last_idx', cell_eq]
  rfl

/-- Result 2. -/
theorem out2_eq (x0 : (⟨S4096x32x128, .f32⟩ : BufTy).Contents (Elt Ideal)) (x1 x2 : (⟨S32x128, .f32⟩ : BufTy).Contents (Elt Ideal))
    (x4 x5 : (⟨S512x128, .f32⟩ : BufTy).Contents (Elt Ideal)) (x6 x7 : (⟨S512, .f32⟩ : BufTy).Contents (Elt Ideal)) :
    val_main_v45 (F := Ideal) x0 x1 x2 x4 x5 x6 x7 = Cert.Lstm.cLast x0 x1 x2 x4 x5 x6 x7 := by
  funext j
  rw [eq_ix2 j]
  exact clast_ix x0 x1 x2 x4 x5 x6 x7 (j 0) (j 1)

end Cert.ReferenceIdeal.LstmRef

end
-- ==== Proof.lean ====
/-
  The certificate of a time-batched LSTM cell: a kernel gridded over the 4096 time steps against the plain reference.

  Both programs apply ONE cell to the same initial state at every step (Proof/Cell.lean states the mathematics).
  The kernel's program prepares, on the host, the transposed input weights and the step-free part of the
  pre-activation (h0's projection plus the two biases); its kernel computes, for 16 blocks of 256 steps, in four chunks
  of 64 steps each, the input's projection by one matrix product, adds the step-free part, and applies the gates;
  after the kernel the host recomputes the last step's cell state and slices the last step's hidden state.  The
  reference computes the whole [4096, 32, 512] pre-activation at once.  On the extended reals the two agree entry
  by entry: a change of float format is the identity, both matrix products are the same finite sums, the logistic
  function spelt out as 1 / (1 + e^(-z)) is the logistic function, and the two groupings of the three summands of
  the pre-activation agree because addition is associative.  No finiteness of the inputs is used.

  The three frames are the generated ones (the reference's is its generated run with the results dropped); the
  ideal pass rewrote nothing, so `preserves` is trivial; `algebraic` pairs the kernel program's run
  (Proof/KRun.lean) with the reference's generated run read through Proof/RefCell.lean, both at the specification's
  three functions of the argument arrays.
-/
import proofs.«159641_j54614804136123_2_alg».proof.Defs
import proofs.«159641_j54614804136123_2_alg».proof.Proof.Gen.Kernel
import proofs.«159641_j54614804136123_2_alg».proof.Proof.Gen.Kernel.Frame
import proofs.«159641_j54614804136123_2_alg».proof.Proof.Gen.KernelIdeal
import proofs.«159641_j54614804136123_2_alg».proof.Proof.Gen.KernelIdeal.Frame
import proofs.«159641_j54614804136123_2_alg».proof.Proof.Gen.ReferenceIdeal
import proofs.«159641_j54614804136123_2_alg».proof.Proof.Gen.ReferenceIdeal.Run
import proofs.«159641_j54614804136123_2_alg».proof.Proof.Gen.ReferenceIdeal.Read
import proofs.«159641_j54614804136123_2_alg».proof.Proof.Gen.Pre_finite_inputs
import proofs.«159641_j54614804136123_2_alg».proof.Proof.KRun
import proofs.«159641_j54614804136123_2_alg».proof.Proof.RefCell
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- From memories that agree on the eight arguments, both programs end with the specification's three functions of
    those arguments as their three results. -/
theorem algebraic : Cert.algebraic_KernelIdeal_ReferenceIdeal := by
  intro m ρ m' ρ' _ hagree
  refine ⟨fun c => Cert.KernelIdeal.LstmValue.specOut m c, fun c => Cert.KernelIdeal.LstmValue.specH m c,
    fun c => Cert.KernelIdeal.LstmValue.specC m c, Cert.KernelIdeal.LstmValue.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨?_, ?_, ?_, (h c).2.2.2⟩
  · rw [(h c).1, Cert.ReferenceIdeal.Read.val_main_v41_eq, Cert.ReferenceIdeal.LstmRef.out0_eq, a0, a1, a2, a3, a4, a5, a6, a7]
  · rw [(h c).2.1, Cert.ReferenceIdeal.Read.val_main_v43_eq, Cert.ReferenceIdeal.LstmRef.out1_eq, a0, a1, a2, a3, a4, a5, a6, a7]
  · rw [(h c).2.2.1, Cert.ReferenceIdeal.Read.val_main_v45_eq, Cert.ReferenceIdeal.LstmRef.out2_eq, a0, a1, a2, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
